-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v38)) (v2 : (c : Dev Cert.KernelIdeal.nD) → Buf (Elt Ideal) ((c.tc : Thread Cert.KernelIdeal.nD Cert.KernelIdeal.τ).loc Cert.KernelIdeal.main_v50)) (v3 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_v50) = v2 c
          ∧ r.2.mem ((c.tc : Thread Cert.KernelIdeal.nD Cert.KernelIdeal.τ).loc Cert.KernelIdeal.main_v50) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_v74) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128 .f32) (main_arg5 : FVec F S128x64 .f32) (main_arg6 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : FVec F S128x64 .f32) (main_arg6 : FVec F S64 .f32) (main_arg7 : IVec S1600000 32) (main_arg8 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S5000x1 : Shape := ⟨2, ![5000, 1]⟩
abbrev S1600000x128 : Shape := ⟨2, ![1600000, 128]⟩
abbrev S1x128 : Shape := ⟨2, ![1, 128]⟩
abbrev S100000x64 : Shape := ⟨2, ![100000, 64]⟩
abbrev S5000x64 : Shape := ⟨2, ![5000, 64]⟩
abbrev S1x64 : Shape := ⟨2, ![1, 64]⟩

abbrev nBuf : Space → Nat
  | .hbm => 80
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x1, .f32⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x128, .f32⟩
  | .hbm, ⟨75, _⟩ => ⟨S_, .f32⟩
  | .hbm, ⟨76, _⟩ => ⟨S100000x128, .f32⟩
  | .hbm, ⟨77, _⟩ => ⟨S1600000x1, .i32⟩
  | .hbm, ⟨78, _⟩ => ⟨S100000x128, .f32⟩
  | .hbm, ⟨79, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S128x128, .f32⟩
  | .local _ .vmem, ⟨11, _⟩ => ⟨S128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x1, .f32⟩
  | .local _ .vmem, ⟨23, _⟩ => ⟨S5000x1, .f32⟩
  | .local _ .vmem, ⟨24, _⟩ => ⟨S128x128, .f32⟩
  | .local _ .vmem, ⟨25, _⟩ => ⟨S128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x1, .f32⟩
  | .local _ .vmem, ⟨31, _⟩ => ⟨S5000x1, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x1, .f32⟩
  | .local _ .vmem, ⟨37, _⟩ => ⟨S5000x1, .f32⟩
  | .local _ .vmem, ⟨38, _⟩ => ⟨S128x64, .f32⟩
  | .local _ .vmem, ⟨39, _⟩ => ⟨S64, .f32⟩
  | .local _ .vmem, ⟨40, _⟩ => ⟨S5000x64, .f32⟩
  | .local _ .vmem, ⟨41, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_cst_4 : Ref sig .tc := ⟨.hbm, 27, rfl⟩
abbrev main_v9 : Ref sig .tc := ⟨.hbm, 28, rfl⟩
abbrev main_v10 : Ref sig .tc := ⟨.hbm, 29, rfl⟩
abbrev main_cst_5 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_6 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_7 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_8 : Ref sig .tc := ⟨.hbm, 51, rfl⟩
abbrev main_v28 : Ref sig .tc := ⟨.hbm, 52, rfl⟩
abbrev main_v29 : Ref sig .tc := ⟨.hbm, 53, rfl⟩
abbrev main_c_9 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_10 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_11 : Ref sig .tc := ⟨.hbm, 66, rfl⟩
abbrev main_v40 : Ref sig .tc := ⟨.hbm, 67, rfl⟩
abbrev main_v41 : Ref sig .tc := ⟨.hbm, 68, rfl⟩
abbrev main_c_12 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_13 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x64.size a ≤ S128x64.size a
  hwx5_2 : ∀ i : grid5.Coords, EltTy.bits .f32 = 32 ∨ (Rect.block (s := S128x64) S128x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64.size a ≤ S64.size a
  hwx5_3 : ∀ i : grid5.Coords, EltTy.bits .f32 = 32 ∨ (Rect.block (s := S64) S64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S100000x64.size a
  hwx5_4 : ∀ i : grid5.Coords, EltTy.bits .f32 = 32 ∨ (Rect.block (s := S100000x64) S5000x64.size (cc5_transform_4 i) (hinb5_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v26) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v37) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg3) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg4) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v38) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v38) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v13) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v39) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v49) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v14) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg5) S128x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg6) S64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v50) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 108
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S100000x1, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S1x128, .f32⟩
  | .hbm, ⟨54, _⟩ => ⟨S100000x128, .f32⟩
  | .hbm, ⟨55, _⟩ => ⟨S100000x128, .f32⟩
  | .hbm, ⟨56, _⟩ => ⟨S_, .f32⟩
  | .hbm, ⟨57, _⟩ => ⟨S100000x128, .f32⟩
  | .hbm, ⟨58, _⟩ => ⟨S100000x128, .f32⟩
  | .hbm, ⟨59, _⟩ => ⟨S100000x1, .f32⟩
  | .hbm, ⟨60, _⟩ => ⟨S100000x128, .f32⟩
  | .hbm, ⟨61, _⟩ => ⟨S100000x128, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x128, .f32⟩
  | .hbm, ⟨71, _⟩ => ⟨S_, .f32⟩
  | .hbm, ⟨72, _⟩ => ⟨S100000x128, .f32⟩
  | .hbm, ⟨73, _⟩ => ⟨S1600000x1, .i32⟩
  | .hbm, ⟨74, _⟩ => ⟨S100000x128, .f32⟩
  | .hbm, ⟨75, _⟩ => ⟨S100000x1, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S100000x128, .f32⟩
  | .hbm, ⟨84, _⟩ => ⟨S100000x128, .f32⟩
  | .hbm, ⟨85, _⟩ => ⟨S100000x1, .f32⟩
  | .hbm, ⟨86, _⟩ => ⟨S100000x128, .f32⟩
  | .hbm, ⟨87, _⟩ => ⟨S100000x128, .f32⟩
  | .hbm, ⟨88, _⟩ => ⟨S_, .i32⟩
  | .hbm, ⟨89, _⟩ => ⟨S1600000, .i32⟩
  | .hbm, ⟨90, _⟩ => ⟨S1600000, .i1⟩
  | .hbm, ⟨91, _⟩ => ⟨S_, .i32⟩
  | .hbm, ⟨92, _⟩ => ⟨S1600000, .i32⟩
  | .hbm, ⟨93, _⟩ => ⟨S1600000, .i32⟩
  | .hbm, ⟨94, _⟩ => ⟨S1600000, .i32⟩
  | .hbm, ⟨95, _⟩ => ⟨S1600000x1, .i32⟩
  | .hbm, ⟨96, _⟩ => ⟨S1600000x128, .f32⟩
  | .hbm, ⟨97, _⟩ => ⟨S_, .f32⟩
  | .hbm, ⟨98, _⟩ => ⟨S100000x128, .f32⟩
  | .hbm, ⟨99, _⟩ => ⟨S1600000x1, .i32⟩
  | .hbm, ⟨100, _⟩ => ⟨S100000x128, .f32⟩
  | .hbm, ⟨101, _⟩ => ⟨S100000x1, .f32⟩
  | .hbm, ⟨102, _⟩ => ⟨S100000x128, .f32⟩
  | .hbm, ⟨103, _⟩ => ⟨S100000x128, .f32⟩
  | .hbm, ⟨104, _⟩ => ⟨S100000x64, .f32⟩
  | .hbm, ⟨105, _⟩ => ⟨S1x64, .f32⟩
  | .hbm, ⟨106, _⟩ => ⟨S100000x64, .f32⟩
  | .hbm, ⟨107, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_cst_4 : Ref sig .tc := ⟨.hbm, 27, rfl⟩
abbrev main_v9 : Ref sig .tc := ⟨.hbm, 28, rfl⟩
abbrev main_v10 : Ref sig .tc := ⟨.hbm, 29, rfl⟩
abbrev main_cst_5 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_6 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_7 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call2_cst : Ref sig .tc := ⟨.hbm, 56, rfl⟩
abbrev main_call2_v0 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_8 : Ref sig .tc := ⟨.hbm, 62, rfl⟩
abbrev main_v37 : Ref sig .tc := ⟨.hbm, 63, rfl⟩
abbrev main_v38 : Ref sig .tc := ⟨.hbm, 64, rfl⟩
abbrev main_c_9 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_10 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_call3_cst : Ref sig .tc := ⟨.hbm, 82, rfl⟩
abbrev main_call3_v0 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_c_11 : Ref sig .tc := ⟨.hbm, 88, rfl⟩
abbrev main_v58 : Ref sig .tc := ⟨.hbm, 89, rfl⟩
abbrev main_v59 : Ref sig .tc := ⟨.hbm, 90, rfl⟩
abbrev main_c_12 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_13 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.Layer.lean ====
/-
  One graph-convolution layer, stage by stage, as whole-array functions.

  A layer takes the node features `h` (one row per node), multiplies row `p` by the source-side normalisation
  `n p`, sums the scaled rows along the edges into each destination node (a gather followed by a scatter-add: a
  whole-array function of its operand that this module never opens), multiplies row `p` of the sums by the
  destination-side normalisation, applies the dense map `x ↦ x · W + b`, and, in the first two layers, the
  rectifier `max (·, 0)`.

  The stages below are written with the host's own operations on the `[100000, 128]` arrays, and each is read at
  an entry `(p, q)` on the extended reals:
    * `scaleRows h n (p, q) = h (p, q) · n (p, 0)`              (the normalisation is a column `[100000, 1]`);
    * `dense128 x n W b (p, q) = ∑ k, (x (p, k) · n (p, 0)) · W (k, q) + b q`   (and `dense64` for 64 columns);
    * `relu128 y (p, q) = max (y (p, q)) 0`.
  The contraction is the textbook sum over the 128 contracted coordinates; nothing here needs the entries to be
  finite, since only the definitions of the operations are unfolded.
-/
import proofs.«166575_j13606456393829_1_alg».proof.Proof.Gen.ReferenceIdeal
import proofs.«166575_j13606456393829_1_alg».proof.Proof.LibPlainDot
import Idealize.ShloMosaic.Lib.Pipeline.Value
import Idealize.ShloMosaic.Lib.ValueIdx
import Idealize.ShloMosaic.PureOps.Ideal.Laws

noncomputable section

namespace Gcn

open Idealize.ShloMosaic Idealize.ShloMosaic.ValueIdx Cert.ReferenceIdeal Cert.ReferenceIdeal.Gen

/-! ## The normalisation column spread over the rows -/

/-- The column `n` repeated along each row. -/
def spreadCol (n : FVec Ideal S100000x1 .f32) : FVec Ideal S100000x128 .f32 :=
  broadcastInDim S100000x128 ![0, 1] bcast_S100000x1_S100000x128_0_1 n

theorem spreadCol_apply (n : FVec Ideal S100000x1 .f32) (p : Fin 100000) (q : Fin 128) :
    spreadCol n (ix2 p q) = n (ix2 p (0 : Fin 1)) :=
  broadcastInDim_apply _ bcast_S100000x1_S100000x128_0_1 n (ix2 p q) (ix2 p (0 : Fin 1)) (fun a => match a with
    | ⟨0, _⟩ => by show p.val = if (100000 : Nat) = 1 then 0 else p.val; rw [if_neg (by decide)]
    | ⟨1, _⟩ => by show (0 : Nat) = if (1 : Nat) = 1 then 0 else q.val; rw [if_pos rfl])

/-- Row `p` of `h` multiplied by `n (p, 0)`. -/
def scaleRows (h : FVec Ideal S100000x128 .f32) (n : FVec Ideal S100000x1 .f32) : FVec Ideal S100000x128 .f32 :=
  mulf h (spreadCol n)

theorem scaleRows_apply (h : FVec Ideal S100000x128 .f32) (n : FVec Ideal S100000x1 .f32) (p : Fin 100000) (q : Fin 128) :
    scaleRows h n (ix2 p q) = h (ix2 p q) * n (ix2 p (0 : Fin 1)) := by
  show h (ix2 p q) * spreadCol n (ix2 p q) = _
  rw [spreadCol_apply]

/-! ## The bias row spread over the rows -/

/-- The bias `b`, a vector of 128 entries, repeated in every row. -/
def spreadRow128 (b : FVec Ideal S128 .f32) : FVec Ideal S100000x128 .f32 :=
  broadcastInDim S100000x128 ![0, 1] bcast_S1x128_S100000x128_0_1 (broadcastInDim S1x128 ![1] bcast_S128_S1x128_1 b)

theorem spreadRow128_apply (b : FVec Ideal S128 .f32) (p : Fin 100000) (q : Fin 128) :
    spreadRow128 b (ix2 p q) = b (ix1 q) := by
  unfold spreadRow128
  rw [broadcastInDim_apply _ bcast_S1x128_S100000x128_0_1 _ (ix2 p q) (ix2 (0 : Fin 1) q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])]
  exact broadcastInDim_apply _ bcast_S128_S1x128_1 b (ix2 (0 : Fin 1) q) (ix1 q) (fun a => match a with
    | ⟨0, _⟩ => by show q.val = if (128 : Nat) = 1 then 0 else q.val; rw [if_neg (by decide)])

/-- The bias `b`, a vector of 64 entries, repeated in every row. -/
def spreadRow64 (b : FVec Ideal S64 .f32) : FVec Ideal S100000x64 .f32 :=
  broadcastInDim S100000x64 ![0, 1] bcast_S1x64_S100000x64_0_1 (broadcastInDim S1x64 ![1] bcast_S64_S1x64_1 b)

theorem spreadRow64_apply (b : FVec Ideal S64 .f32) (p : Fin 100000) (q : Fin 64) :
    spreadRow64 b (ix2 p q) = b (ix1 q) := by
  unfold spreadRow64
  rw [broadcastInDim_apply _ bcast_S1x64_S100000x64_0_1 _ (ix2 p q) (ix2 (0 : Fin 1) q) (fun a => match a with
    | ⟨0, _⟩ => by show (0 : Nat) = if (1 : Nat) = 1 then 0 else p.val; rw [if_pos rfl]
    | ⟨1, _⟩ => by show q.val = if (64 : Nat) = 1 then 0 else q.val; rw [if_neg (by decide)])]
  exact broadcastInDim_apply _ bcast_S64_S1x64_1 b (ix2 (0 : Fin 1) q) (ix1 q) (fun a => match a with
    | ⟨0, _⟩ => by show q.val = if (64 : Nat) = 1 then 0 else q.val; rw [if_neg (by decide)])

/-! ## The dense map -/

/-- The host's contraction records are the plain "rows by columns" product. -/
theorem dot128_plain : dot_S100000x128_S128x128_S100000x128_1_0_0_1_n_n = DotDims.plain 100000 128 128 := rfl
theorem dot64_plain : dot_S100000x128_S128x64_S100000x64_1_0_0_1_n_n = DotDims.plain 100000 128 64 := rfl

/-- Rows scaled by `n`, times `W`, plus the bias: 128 output columns. -/
def dense128 (x : FVec Ideal S100000x128 .f32) (n : FVec Ideal S100000x1 .f32) (W : FVec Ideal S128x128 .f32)
    (b : FVec Ideal S128 .f32) : FVec Ideal S100000x128 .f32 :=
  addf (Host.dotGeneral dot_S100000x128_S128x128_S100000x128_1_0_0_1_n_n none (scaleRows x n) W) (spreadRow128 b)

theorem dense128_apply (x : FVec Ideal S100000x128 .f32) (n : FVec Ideal S100000x1 .f32) (W : FVec Ideal S128x128 .f32)
    (b : FVec Ideal S128 .f32) (p : Fin 100000) (q : Fin 128) :
    dense128 x n W b (ix2 p q)
      = (∑ k : Fin 128, (x (ix2 p k) * n (ix2 p (0 : Fin 1))) * W (ix2 k q)) + b (ix1 q) := by
  show FloatOps.dotGeneral dot_S100000x128_S128x128_S100000x128_1_0_0_1_n_n none .single (scaleRows x n) W (ix2 p q)
      + spreadRow128 b (ix2 p q) = _
  rw [spreadRow128_apply, dot128_plain, Gcn.Lib.plain_dotGeneral_apply]
  simp only [scaleRows_apply]

/-- Rows scaled by `n`, times `W`, plus the bias: 64 output columns. -/
def dense64 (x : FVec Ideal S100000x128 .f32) (n : FVec Ideal S100000x1 .f32) (W : FVec Ideal S128x64 .f32)
    (b : FVec Ideal S64 .f32) : FVec Ideal S100000x64 .f32 :=
  addf (Host.dotGeneral dot_S100000x128_S128x64_S100000x64_1_0_0_1_n_n none (scaleRows x n) W) (spreadRow64 b)

theorem dense64_apply (x : FVec Ideal S100000x128 .f32) (n : FVec Ideal S100000x1 .f32) (W : FVec Ideal S128x64 .f32)
    (b : FVec Ideal S64 .f32) (p : Fin 100000) (q : Fin 64) :
    dense64 x n W b (ix2 p q)
      = (∑ k : Fin 128, (x (ix2 p k) * n (ix2 p (0 : Fin 1))) * W (ix2 k q)) + b (ix1 q) := by
  show FloatOps.dotGeneral dot_S100000x128_S128x64_S100000x64_1_0_0_1_n_n none .single (scaleRows x n) W (ix2 p q)
      + spreadRow64 b (ix2 p q) = _
  rw [spreadRow64_apply, dot64_plain, Gcn.Lib.plain_dotGeneral_apply]
  simp only [scaleRows_apply]

/-! ## The rectifier -/

/-- `max (y, 0)`, entry by entry. -/
def relu128 (y : FVec Ideal S100000x128 .f32) : FVec Ideal S100000x128 .f32 :=
  maximumf y (broadcastInDim S100000x128 ![] bcast_S_S100000x128 (constant S_ .f32 0x00000000#32))

theorem relu128_apply (y : FVec Ideal S100000x128 .f32) (p : Fin 100000) (q : Fin 128) :
    relu128 y (ix2 p q) = max (y (ix2 p q)) (Ideal.ofBits .f32 0x00000000#32) := by
  show max (y (ix2 p q)) (broadcastInDim S100000x128 ![] bcast_S_S100000x128 (constant (F := Ideal) S_ .f32 0x00000000#32) (ix2 p q)) = _
  rw [broadcastInDim_apply _ bcast_S_S100000x128 _ (ix2 p q) ix0 (fun a => a.elim0)]
  rfl

end Gcn

end
-- ==== Proof.Glue.lean ====
/-
  The three layers as whole-array functions of the inputs.

  Besides the stages of `Layer`, a layer uses two pieces that both programs compute on the host with the same
  operations, and that are never opened here:
    * `nrm e`: for an edge-endpoint list `e`, count how often each node occurs (a scatter-add of ones into zeros),
      raise the count to at least one, and take the power `-1/2`; `col` turns the resulting vector into a column;
    * `agg src dst x`: replace a negative source index `s` by `s + 100000`, gather the rows of `x` at the source
      indices, and scatter-add them into zeros at the destination indices — the product of the graph's adjacency
      matrix with `x`.
  A hidden layer is `h ↦ max (((agg (h ⊙ nrm src)) ⊙ nrm dst) · W + b, 0)`; the last layer has no maximum and 64
  output columns.
-/
import proofs.«166575_j13606456393829_1_alg».proof.Proof.Layer

noncomputable section

namespace Gcn

open Idealize.ShloMosaic Idealize.ShloMosaic.ValueIdx Cert.ReferenceIdeal Cert.ReferenceIdeal.Gen

/-- An edge-endpoint list: one node index per edge. -/
abbrev Edges : Type := (⟨S1600000, .i32⟩ : BufTy).Contents (Elt Ideal)

section AnyInstance

/-! The normalisation uses no property of the number system, so its pieces are stated for any instance of the
    float operations (at the extended reals below, and where the kernel's host prelude is read back). -/

variable {F : FTy → Type} [FloatOps F]

/-- The scalar one, and the vector of one per edge. -/
def one : FVec F S_ .f32 := constant (F := F) S_ .f32 0x3F800000#32
def ones : FVec F S1600000 .f32 := broadcastInDim S1600000 ![] bcast_S_S1600000 (constant (F := F) S_ .f32 0x3F800000#32)

/-- How many edges have the node as their endpoint in `e`: ones scattered and added into zeros. -/
def cnt (e : (⟨S1600000, .i32⟩ : BufTy).Contents (Elt F)) : FVec F S100000 .f32 :=
  Host.scatterAdd scatter_S100000_S1600000x1_S1600000_n_0_0_1
    (broadcastInDim S100000 ![] bcast_S_S100000 (constant (F := F) S_ .f32 0x00000000#32))
    (broadcastInDim S1600000x1 ![0] bcast_S1600000_S1600000x1_0 e) ones

/-- Raised to at least one. -/
def clip1 (x : FVec F S100000 .f32) : FVec F S100000 .f32 :=
  maximumf (broadcastInDim S100000 ![] bcast_S_S100000 (id one)) x

/-- To the power `-1/2`. -/
def rpow (x : FVec F S100000 .f32) : FVec F S100000 .f32 :=
  Host.powf x (broadcastInDim S100000 ![] bcast_S_S100000 (constant (F := F) S_ .f32 0xBF000000#32))

/-- `max (count, 1) ^ (-1/2)` per node, the count being the number of edges whose endpoint in `e` is the node. -/
def nrm (e : (⟨S1600000, .i32⟩ : BufTy).Contents (Elt F)) : FVec F S100000 .f32 := rpow (clip1 (cnt e))

/-- A vector of one entry per node as a column. -/
def col (v : FVec F S100000 .f32) : FVec F S100000x1 .f32 :=
  broadcastInDim S100000x1 ![0] bcast_S100000_S100000x1_0 v

end AnyInstance

/-- The rows of `x` summed along the edges into their destination nodes. -/
def agg (src dst : Edges) (x : FVec Ideal S100000x128 .f32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- A hidden layer. -/
def hidden (h : FVec Ideal S100000x128 .f32) (W : FVec Ideal S128x128 .f32) (b : FVec Ideal S128 .f32)
    (src dst : Edges) : FVec Ideal S100000x128 .f32 :=
  relu128 (dense128 (agg src dst (scaleRows h (col (nrm (F := Ideal) src)))) (col (nrm (F := Ideal) dst)) W b)

/-- The last layer. -/
def last (h : FVec Ideal S100000x128 .f32) (W : FVec Ideal S128x64 .f32) (b : FVec Ideal S64 .f32)
    (src dst : Edges) : FVec Ideal S100000x64 .f32 :=
  dense64 (agg src dst (scaleRows h (col (nrm (F := Ideal) src)))) (col (nrm (F := Ideal) dst)) W b

end Gcn

end
-- ==== Proof.Prelude.lean ====
/-
  The kernel's host prelude, read back: the two normalisation columns.

  Before its first region the kernel runs five host stretches: scatter-add ones at the source endpoints, raise to at
  least one (a call of a small function, whose values pass through typed buffers), the same for the destination
  endpoints, then the power `-1/2` of each and the recast to a column. Nothing here depends on the number system,
  so the stretches are read at any instance of the float operations: first as the operations' composed term of the
  launch contents of the edge lists, then as `col (nrm ·)`.
-/
import proofs.«166575_j13606456393829_1_alg».proof.Proof.Gen.KernelIdeal.Frame
import proofs.«166575_j13606456393829_1_alg».proof.Proof.Glue
import Idealize.ShloMosaic.Lib.StableHlo.Run

set_option maxRecDepth 16384

noncomputable section

namespace Gcn.Prelude

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- The source-side column at the first region's entry, as the stretches' composed term. -/
theorem v13_term (c : Dev nD) : W5 m ρ c (Proc.devRef .tc main_v13)
    = broadcastInDim S100000x1 ![0] bcast_S100000_S100000x1_0
      (Host.powf
        (maximumf (broadcastInDim S100000 ![] bcast_S_S100000 (id (constant S_ .f32 0x3F800000#32)))
          (Host.scatterAdd scatter_S100000_S1600000x1_S1600000_n_0_0_1
            (broadcastInDim S100000 ![] bcast_S_S100000 (constant S_ .f32 0x00000000#32))
            (broadcastInDim S1600000x1 ![0] bcast_S1600000_S1600000x1_0 (m ((c : Thread nD τ).loc main_arg7)))
            (broadcastInDim S1600000 ![] bcast_S_S1600000 (constant S_ .f32 0x3F800000#32))))
        (broadcastInDim S100000 ![] bcast_S_S100000 (constant S_ .f32 0xBF000000#32))) := by
  dsimp only [W5, W4, W3, W2, W1, W0]
  simp only [hostOps0, hostOps0_1, hostOps0_2, hostOps0_3, hostOps0_4]
  after_results_simp
  rfl

/-- The destination-side column at the first region's entry, as the stretches' composed term. -/
theorem v14_term (c : Dev nD) : W5 m ρ c (Proc.devRef .tc main_v14)
    = broadcastInDim S100000x1 ![0] bcast_S100000_S100000x1_0
      (Host.powf
        (maximumf (broadcastInDim S100000 ![] bcast_S_S100000 (id (constant S_ .f32 0x3F800000#32)))
          (Host.scatterAdd scatter_S100000_S1600000x1_S1600000_n_0_0_1
            (broadcastInDim S100000 ![] bcast_S_S100000 (constant S_ .f32 0x00000000#32))
            (broadcastInDim S1600000x1 ![0] bcast_S1600000_S1600000x1_0 (m ((c : Thread nD τ).loc main_arg8)))
            (broadcastInDim S1600000 ![] bcast_S_S1600000 (constant S_ .f32 0x3F800000#32))))
        (broadcastInDim S100000 ![] bcast_S_S100000 (constant S_ .f32 0xBF000000#32))) := by
  dsimp only [W5, W4, W3, W2, W1, W0]
  simp only [hostOps0, hostOps0_1, hostOps0_2, hostOps0_3, hostOps0_4]
  after_results_simp
  rfl

/-- The source-side normalisation column. -/
theorem v13 (c : Dev nD) : W5 m ρ c (Proc.devRef .tc main_v13) = Gcn.col (Gcn.nrm (m ((c : Thread nD τ).loc main_arg7))) :=
  (v13_term m ρ c).trans rfl

/-- The destination-side normalisation column. -/
theorem v14 (c : Dev nD) : W5 m ρ c (Proc.devRef .tc main_v14) = Gcn.col (Gcn.nrm (m ((c : Thread nD τ).loc main_arg8))) :=
  (v14_term m ρ c).trans rfl

end Gcn.Prelude

end
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.LibTileOps.lean ====
/-
  The layout chains of a tile body, read at an entry.

  A body that works on an `[a, b]` tile against per-column parameters meets a handful of chains of layout
  operations again and again: a `[b]` vector recast to the row `[1, b]` and broadcast down the tile's rows; one row of a
  `[m, b]` block sliced out, flattened, recast and broadcast the same way; one `[1, a, b]` slab of an `[m, a, b]` stack
  loaded through its rectangle and recast to the matrix `[a, b]`; a row sum recast to a column and broadcast across the
  tile's columns. Each lemma reads one chain at the entry `(p, c)` as the operand at the evident index.
-/
import Idealize.ShloMosaic.PureOps.Ideal.Laws
import Idealize.ShloMosaic.Lib.ValueIdx
import Idealize.ShloMosaic.Lib.ValueLayout
import Idealize.ShloMosaic.Lib.Pipeline.Value
import proofs.«166575_j13606456393829_1_alg».proof.Proof.LibRowOps

namespace Hmu.Lib

open Idealize.ShloMosaic Idealize.ShloMosaic.ValueIdx

variable {a b m : ℕ} {α : Type}

/-- A `[b]` vector recast to the row `[1, b]` and broadcast over `[a, b]` reads, at `(p, c)`, the vector at `c`. -/
theorem rowVec_apply (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- The same with a cast of the vector to its own shape first. -/
theorem rowVec_self_apply (v : (⟨1, ![b]⟩ : Shape).Idx → α) (h0 : (⟨1, ![b]⟩ : Shape).ShapeCasts ⟨1, ![b]⟩)
    (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ v h0) h1) h2 (ix2 p c) = v (ix1 c) := by
  rw [shapeCast_self]; exact rowVec_apply v h1 h2 p c

/-- Row `k` of an `[m, b]` block, sliced out as `[1, b]` at the literal offset `o = k`, flattened to `[b]`, recast to `[1, b]` and
    broadcast over `[a, b]`, reads at `(p, c)` the block at `(k, c)`. -/
theorem blockRow_apply (v : (⟨2, ![m, b]⟩ : Shape).Idx → α) (o : ℕ) (k : Fin m) (hk : k.val = o)
    (hs : (⟨2, ![m, b]⟩ : Shape).Slices ![o, 0] ⟨2, ![1, b]⟩)
    (h0 : (⟨2, ![1, b]⟩ : Shape).ShapeCasts ⟨1, ![b]⟩) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ (extractStridedSlice ⟨2, ![1, b]⟩ ![o, 0] v hs) h0) h1) h2 (ix2 p c)
      = v (ix2 k c) :=
  (rowVec_apply _ h1 h2 p c).trans <| (shapeCast_1a_a_apply _ h0 c).trans <|
    slice2_axis0_apply o v hs (0 : Fin 1) c k (by simp [hk])

/-- A row sum of an `[a, b]` tile, recast to the column `[a, 1]` and broadcast over `[a, b]`, reads at `(p, c)` the sum of
    row `p`. -/
theorem rowSumCol_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ)
    (h1 : (⟨1, ![a]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ (multiReduction .add [1] ⟨1, ![a]⟩ v 0x00000000#32 h hφ hacc) h1) h2 (ix2 p c)
      = ∑ k : Fin b, v (ix2 p k) :=
  (Gcn.Lib.broadcastTo_a1_ab_apply _ h2 p c).trans <| (Gcn.Lib.shapeCast_a_a1_apply _ h1 p 0).trans <|
    Gcn.Lib.rowSum_apply v h hφ hacc p

/-- Slab `k` of an `[m, a, b]` stack, loaded through the rectangle of extents `[1, a, b]` at the literal offsets `[o, 0, 0]`,
    `o = k`, reads at `(0, i, j)` the stack at `(k, i, j)`. -/
theorem ld_slab {Val : EltTy → Type} {e : EltTy} (x : (⟨3, ![m, a, b]⟩ : Shape).Idx → Val e) (o : ℕ) (k : Fin m) (hk : k.val = o)
    (inb : ∀ ax, (![o, 0, 0] : Fin 3 → ℕ) ax + (⟨3, ![1, a, b]⟩ : Shape).size ax ≤ (⟨3, ![m, a, b]⟩ : Shape).size ax)
    (i : Fin a) (j : Fin b) :
    View.ld (Val := Val) x (Rect.unit (s := ⟨3, ![m, a, b]⟩) ![o, 0, 0] (⟨3, ![1, a, b]⟩ : Shape).size inb) (ix3 (0 : Fin 1) i j)
      = x (ix3 k i j) := by
  show x ((Rect.unit (s := ⟨3, ![m, a, b]⟩) ![o, 0, 0] (⟨3, ![1, a, b]⟩ : Shape).size inb).idx (ix3 (0 : Fin 1) i j)) = _
  refine congrArg x (funext fun ax => Fin.ext ?_)
  match ax with
  | ⟨0, _⟩ => show o + 1 * 0 = k.val; omega
  | ⟨1, _⟩ => show 0 + 1 * i.val = i.val; omega
  | ⟨2, _⟩ => show 0 + 1 * j.val = j.val; omega

end Hmu.Lib
-- ==== Proof.Tile.lean ====
/-
  The six kernel bodies, each read at one entry of the tile it writes.

  A grid point works on a tile of 5000 consecutive rows. The row-scaling body multiplies the tile's entry `(r, q)` by
  the entry of row `r` of the normalisation column (a `[5000, 1]` block broadcast along the row). The dense body does
  the same scaling, rounds to the matrix unit's input format (the identity on the extended reals), multiplies by the
  whole weight matrix accumulating into zero — at entry `(r, q)` the sum over the 128 contracted coordinates `k` of
  `(x (r, k) · n (r, 0)) · W (k, q)` —, adds entry `q` of the bias (a vector recast to a row and broadcast over the
  rows), and, in the first two layers, takes the maximum with zero.
-/
import proofs.«166575_j13606456393829_1_alg».proof.Proof.Gen.KernelIdeal.Skeleton
import proofs.«166575_j13606456393829_1_alg».proof.Proof.LibPlainDot
import proofs.«166575_j13606456393829_1_alg».proof.Proof.LibRowOps
import proofs.«166575_j13606456393829_1_alg».proof.Proof.LibTileOps
import Idealize.ShloMosaic.Lib.Pipeline.Value
import Idealize.ShloMosaic.Lib.ValueIdx
import Idealize.ShloMosaic.PureOps.Ideal.Laws

noncomputable section

namespace Gcn.Tile

open Idealize.ShloMosaic Idealize.ShloMosaic.ValueIdx Cert.KernelIdeal Cert.KernelIdeal.Gen

/-- The normalisation block, recast to its own shape and broadcast along the rows, reads row `r`'s entry. -/
theorem col_apply (x1 : FVec Ideal S5000x1 .f32) (r : Fin 5000) (q : Fin 128) :
    broadcastTo S5000x128 (shapeCast S5000x1 x1 shapeCasts_S5000x1_S5000x1) broadcasts_S5000x1_S5000x128 (ix2 r q)
      = x1 (ix2 r (0 : Fin 1)) := by
  rw [shapeCast_self]
  exact Gcn.Lib.broadcastTo_a1_ab_apply (a := 5000) (b := 128) x1 broadcasts_S5000x1_S5000x128 r q

/-- Body of region 0 (row scaling) at entry `(r, q)` of the tile: the tile's entry times the column's entry of row `r`. -/
theorem scale0_apply (x0 : FVec Ideal S5000x128 .f32) (x1 : FVec Ideal S5000x1 .f32) (r : Fin 5000) (q : Fin 128) :
    k0_pay1 (F := Ideal) x0 x1 (ix2 r q) = x0 (ix2 r q) * x1 (ix2 r (0 : Fin 1)) := by
  unfold k0_pay1
  show x0 (ix2 r q)
      * broadcastTo S5000x128 (shapeCast S5000x1 x1 shapeCasts_S5000x1_S5000x1) broadcasts_S5000x1_S5000x128 (ix2 r q) = _
  rw [col_apply]

/-- Body of region 2 (row scaling) at entry `(r, q)` of the tile: the tile's entry times the column's entry of row `r`. -/
theorem scale2_apply (x0 : FVec Ideal S5000x128 .f32) (x1 : FVec Ideal S5000x1 .f32) (r : Fin 5000) (q : Fin 128) :
    k2_pay1 (F := Ideal) x0 x1 (ix2 r q) = x0 (ix2 r q) * x1 (ix2 r (0 : Fin 1)) := by
  unfold k2_pay1
  show shapeCast S5000x128 x0 shapeCasts_S5000x128_S5000x128 (ix2 r q)
      * broadcastTo S5000x128 (shapeCast S5000x1 x1 shapeCasts_S5000x1_S5000x1) broadcasts_S5000x1_S5000x128 (ix2 r q) = _
  rw [shapeCast_self, col_apply]

/-- Body of region 4 (row scaling) at entry `(r, q)` of the tile: the tile's entry times the column's entry of row `r`. -/
theorem scale4_apply (x0 : FVec Ideal S5000x128 .f32) (x1 : FVec Ideal S5000x1 .f32) (r : Fin 5000) (q : Fin 128) :
    k4_pay1 (F := Ideal) x0 x1 (ix2 r q) = x0 (ix2 r q) * x1 (ix2 r (0 : Fin 1)) := by
  unfold k4_pay1
  show shapeCast S5000x128 x0 shapeCasts_S5000x128_S5000x128 (ix2 r q)
      * broadcastTo S5000x128 (shapeCast S5000x1 x1 shapeCasts_S5000x1_S5000x1) broadcasts_S5000x1_S5000x128 (ix2 r q) = _
  rw [shapeCast_self, col_apply]

/-- Body of region 1 (scale, multiply by the weights, add the bias, rectify) at entry `(r, q)` of the tile. -/
theorem dense1_apply (x0 : FVec Ideal S5000x128 .f32) (x1 : FVec Ideal S5000x1 .f32) (x2 : FVec Ideal S128x128 .f32)
    (x3 : FVec Ideal S128 .f32) (r : Fin 5000) (q : Fin 128) :
    k1_pay1 (F := Ideal) x0 x1 x2 x3 (ix2 r q)
      = max ((∑ k : Fin 128, (x0 (ix2 r k) * x1 (ix2 r (0 : Fin 1))) * x2 (ix2 k q)) + x3 (ix1 q)) (Ideal.ofBits .f32 0x00000000#32) := by
  have hmm : FloatOps.matmul dot_S5000x128_S128x128_S5000x128_1_0_0_1_n_n none
        (truncf (F := Ideal) .bf16 (mulf (shapeCast S5000x128 x0 shapeCasts_S5000x128_S5000x128)
          (broadcastTo S5000x128 (shapeCast S5000x1 x1 shapeCasts_S5000x1_S5000x1) broadcasts_S5000x1_S5000x128)) bitsLt_bf16_f32)
        (truncf (F := Ideal) .bf16 x2 bitsLt_bf16_f32) (constant (F := Ideal) S5000x128 .f32 0x00000000#32) (ix2 r q)
      = ∑ k : Fin 128, (x0 (ix2 r k) * x1 (ix2 r (0 : Fin 1))) * x2 (ix2 k q) := by
    refine (Gcn.Lib.plain_matmul_zero_apply (M := 5000) (K := 128) (N := 128) _ _ none r q).trans ?_
    refine Finset.sum_congr rfl fun k _ => ?_
    show (shapeCast S5000x128 x0 shapeCasts_S5000x128_S5000x128 (ix2 r k)
        * broadcastTo S5000x128 (shapeCast S5000x1 x1 shapeCasts_S5000x1_S5000x1) broadcasts_S5000x1_S5000x128 (ix2 r k)) * x2 (ix2 k q) = _
    rw [shapeCast_self, col_apply]
  have hb : broadcastTo S5000x128 (shapeCast S1x128 x3 shapeCasts_S128_S1x128) broadcasts_S1x128_S5000x128 (ix2 r q) = x3 (ix1 q) :=
    Hmu.Lib.rowVec_apply (a := 5000) (b := 128) x3 shapeCasts_S128_S1x128 broadcasts_S1x128_S5000x128 r q
  unfold k1_pay1
  exact congrArg (fun s => max s (Ideal.ofBits .f32 0x00000000#32)) (congrArg₂ (· + ·) hmm hb)

/-- Body of region 3 (scale, multiply by the weights, add the bias, rectify) at entry `(r, q)` of the tile. -/
theorem dense3_apply (x0 : FVec Ideal S5000x128 .f32) (x1 : FVec Ideal S5000x1 .f32) (x2 : FVec Ideal S128x128 .f32)
    (x3 : FVec Ideal S128 .f32) (r : Fin 5000) (q : Fin 128) :
    k3_pay1 (F := Ideal) x0 x1 x2 x3 (ix2 r q)
      = max ((∑ k : Fin 128, (x0 (ix2 r k) * x1 (ix2 r (0 : Fin 1))) * x2 (ix2 k q)) + x3 (ix1 q)) (Ideal.ofBits .f32 0x00000000#32) := by
  have hmm : FloatOps.matmul dot_S5000x128_S128x128_S5000x128_1_0_0_1_n_n none
        (truncf (F := Ideal) .bf16 (mulf (shapeCast S5000x128 x0 shapeCasts_S5000x128_S5000x128)
          (broadcastTo S5000x128 (shapeCast S5000x1 x1 shapeCasts_S5000x1_S5000x1) broadcasts_S5000x1_S5000x128)) bitsLt_bf16_f32)
        (truncf (F := Ideal) .bf16 x2 bitsLt_bf16_f32) (constant (F := Ideal) S5000x128 .f32 0x00000000#32) (ix2 r q)
      = ∑ k : Fin 128, (x0 (ix2 r k) * x1 (ix2 r (0 : Fin 1))) * x2 (ix2 k q) := by
    refine (Gcn.Lib.plain_matmul_zero_apply (M := 5000) (K := 128) (N := 128) _ _ none r q).trans ?_
    refine Finset.sum_congr rfl fun k _ => ?_
    show (shapeCast S5000x128 x0 shapeCasts_S5000x128_S5000x128 (ix2 r k)
        * broadcastTo S5000x128 (shapeCast S5000x1 x1 shapeCasts_S5000x1_S5000x1) broadcasts_S5000x1_S5000x128 (ix2 r k)) * x2 (ix2 k q) = _
    rw [shapeCast_self, col_apply]
  have hb : broadcastTo S5000x128 (shapeCast S1x128 x3 shapeCasts_S128_S1x128) broadcasts_S1x128_S5000x128 (ix2 r q) = x3 (ix1 q) :=
    Hmu.Lib.rowVec_apply (a := 5000) (b := 128) x3 shapeCasts_S128_S1x128 broadcasts_S1x128_S5000x128 r q
  unfold k3_pay1
  exact congrArg (fun s => max s (Ideal.ofBits .f32 0x00000000#32)) (congrArg₂ (· + ·) hmm hb)

/-- Body of region 5 (scale, multiply by the weights, add the bias) at entry `(r, q)` of the tile. -/
theorem dense5_apply (x0 : FVec Ideal S5000x128 .f32) (x1 : FVec Ideal S5000x1 .f32) (x2 : FVec Ideal S128x64 .f32)
    (x3 : FVec Ideal S64 .f32) (r : Fin 5000) (q : Fin 64) :
    k5_pay1 (F := Ideal) x0 x1 x2 x3 (ix2 r q)
      = (∑ k : Fin 128, (x0 (ix2 r k) * x1 (ix2 r (0 : Fin 1))) * x2 (ix2 k q)) + x3 (ix1 q) := by
  have hmm : FloatOps.matmul dot_S5000x128_S128x64_S5000x64_1_0_0_1_n_n none
        (truncf (F := Ideal) .bf16 (mulf (shapeCast S5000x128 x0 shapeCasts_S5000x128_S5000x128)
          (broadcastTo S5000x128 (shapeCast S5000x1 x1 shapeCasts_S5000x1_S5000x1) broadcasts_S5000x1_S5000x128)) bitsLt_bf16_f32)
        (truncf (F := Ideal) .bf16 x2 bitsLt_bf16_f32) (constant (F := Ideal) S5000x64 .f32 0x00000000#32) (ix2 r q)
      = ∑ k : Fin 128, (x0 (ix2 r k) * x1 (ix2 r (0 : Fin 1))) * x2 (ix2 k q) := by
    refine (Gcn.Lib.plain_matmul_zero_apply (M := 5000) (K := 128) (N := 64) _ _ none r q).trans ?_
    refine Finset.sum_congr rfl fun k _ => ?_
    show (shapeCast S5000x128 x0 shapeCasts_S5000x128_S5000x128 (ix2 r k)
        * broadcastTo S5000x128 (shapeCast S5000x1 x1 shapeCasts_S5000x1_S5000x1) broadcasts_S5000x1_S5000x128 (ix2 r k)) * x2 (ix2 k q) = _
    rw [shapeCast_self, col_apply]
  have hb : broadcastTo S5000x64 (shapeCast S1x64 x3 shapeCasts_S64_S1x64) broadcasts_S1x64_S5000x64 (ix2 r q) = x3 (ix1 q) :=
    Hmu.Lib.rowVec_apply (a := 5000) (b := 64) x3 shapeCasts_S64_S1x64 broadcasts_S1x64_S5000x64 r q
  unfold k5_pay1
  exact congrArg₂ (· + ·) hmm hb

end Gcn.Tile

end
-- ==== Proof.Region0.lean ====
/-
  Region 0 as one whole-array function: row `p` of its first operand times entry `(p, 0)` of the normalisation column.

  The region's grid has 20 points; point `t` stages rows `5000·t … 5000·t + 4999` of each row-blocked array
  (block index `(t, 0)`), computes the tile, and writes it back to the same rows of the output. Entry `(r, q)` of
  the tile therefore lands at entry `(5000·t + r, q)` of the array and is computed from row `5000·t + r` of the
  inputs; every row `p < 100000` lies in the block of the point `p / 5000`, so the 20 blocks cover the array.
-/
import proofs.«166575_j13606456393829_1_alg».proof.Proof.Gen.KernelIdeal.Frame
import proofs.«166575_j13606456393829_1_alg».proof.Proof.Layer
import proofs.«166575_j13606456393829_1_alg».proof.Proof.Tile

set_option maxRecDepth 16384

noncomputable section

namespace Gcn.Region0

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps, decided over the grid: every window's block index at point `t` is `(t, 0)`. -/
theorem idx_facts : ∀ t : Fin cfg0.N, win0_0.index t (0 : Fin 2) = t.val ∧ win0_1.index t (0 : Fin 2) = t.val
    ∧ win0_2.index t (0 : Fin 2) = t.val ∧ win0_0.index t (1 : Fin 2) = 0 ∧ win0_1.index t (1 : Fin 2) = 0
    ∧ win0_2.index t (1 : Fin 2) = 0 :=
  (by decide +kernel : ∀ t : Fin grid0.N, _)

/-- Window 0's block at point `t` sits at rows `5000·t …` of its array. -/
theorem emb_in (t : Fin cfg0.N) (r : Fin 5000) (q : Fin 128) (h : t.val * 5000 + r.val < 100000) :
    ((cfg0.win 0).blk t).view.emb (ix2 r q) = ix2 (⟨t.val * 5000 + r.val, h⟩ : Fin 100000) q := by
  have e := idx_facts t
  funext a; apply Fin.ext
  match a with
  | ⟨0, _⟩ => show win0_0.index t (0 : Fin 2) * 5000 + 1 * r.val = t.val * 5000 + r.val; omega
  | ⟨1, _⟩ => show win0_0.index t (1 : Fin 2) * 128 + 1 * q.val = q.val; omega

/-- Window 1's block at point `t` sits at rows `5000·t …` of its array. -/
theorem emb_col (t : Fin cfg0.N) (r : Fin 5000) (q : Fin 1) (h : t.val * 5000 + r.val < 100000) :
    ((cfg0.win 1).blk t).view.emb (ix2 r q) = ix2 (⟨t.val * 5000 + r.val, h⟩ : Fin 100000) q := by
  have e := idx_facts t
  funext a; apply Fin.ext
  match a with
  | ⟨0, _⟩ => show win0_1.index t (0 : Fin 2) * 5000 + 1 * r.val = t.val * 5000 + r.val; omega
  | ⟨1, _⟩ => show win0_1.index t (1 : Fin 2) * 1 + 1 * q.val = q.val; omega

/-- Window 2's block at point `t` sits at rows `5000·t …` of its array. -/
theorem emb_out (t : Fin cfg0.N) (r : Fin 5000) (q : Fin 128) (h : t.val * 5000 + r.val < 100000) :
    ((cfg0.win 2).blk t).view.emb (ix2 r q) = ix2 (⟨t.val * 5000 + r.val, h⟩ : Fin 100000) q := by
  have e := idx_facts t
  funext a; apply Fin.ext
  match a with
  | ⟨0, _⟩ => show win0_2.index t (0 : Fin 2) * 5000 + 1 * r.val = t.val * 5000 + r.val; omega
  | ⟨1, _⟩ => show win0_2.index t (1 : Fin 2) * 128 + 1 * q.val = q.val; omega

/-- WHAT POINT `t` WRITES BACK is block `t` of the scaled array. -/
theorem flushed (c : Dev nD) (t : Fin cfg0.N) :
    (dat0 V c).flushed 2 t
      = ((cfg0.win 2).blk t).view.read (Elt Ideal) (Gcn.scaleRows (V c main_arg0) (V c main_v13)) := by
  show (cfg0.win 2).cut (grid0.coords t) ((dat0 V c).after 2 t) = _
  rw [after0_2]
  unfold out0_2
  rw [View.canon_unit_zero hz2]
  simp only [View.ld_unit_zero (S := S5000x128) hz2, View.ld_unit_zero (S := S5000x1) hz2]
  funext j
  obtain ⟨r, q, rfl⟩ : ∃ (r : Fin 5000) (q : Fin 128), j = ix2 r q := ⟨j 0, j 1, eq_ix2 j⟩
  have hN : grid0.N = 20 := N_0
  have ht : t.val < grid0.N := t.isLt
  have hP : t.val * 5000 + r.val < 100000 := by have := r.isLt; omega
  show k0_pay1 (iblk0 V c 0 t) (iblk0 V c 1 t) (ix2 r q)
      = Gcn.scaleRows (V c main_arg0) (V c main_v13) (((cfg0.win 2).blk t).view.emb (ix2 r q))
  rw [emb_out t r q hP, Gcn.scaleRows_apply]
  refine (Gcn.Tile.scale0_apply (iblk0 V c 0 t) (iblk0 V c 1 t) r q).trans ?_
  refine congrArg₂ (fun a b : EReal => a * b) ?_ ?_
  · show V c main_arg0 (((cfg0.win 0).blk t).view.emb (ix2 r q)) = _
    rw [emb_in t r q hP]
  · show V c main_v13 (((cfg0.win 1).blk t).view.emb (ix2 r (0 : Fin 1))) = _
    rw [emb_col t r 0 hP]

/-- An entry of the array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v15).slice (win0_2.rect t)).set ↔ _
  rw [View.set_slice_whole, Rect.mem_set_unit]
  exact Iff.rfl

/-- Every entry of the array is in the block of the point `row / 5000`. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 20 := N_0
  have hlt : (i 0).val / 5000 < grid0.N := by omega
  have e := idx_facts (⟨(i 0).val / 5000, hlt⟩ : Fin cfg0.N)
  refine ⟨⟨(i 0).val / 5000, hlt⟩, flush0_2 _, ?_⟩
  rw [mem_blk]
  intro a
  match a with
  | ⟨0, _⟩ =>
    show win0_2.index ⟨(i 0).val / 5000, hlt⟩ (0 : Fin 2) * 5000 ≤ (i 0).val
      ∧ (i 0).val < win0_2.index ⟨(i 0).val / 5000, hlt⟩ (0 : Fin 2) * 5000 + 5000
    have e0 : win0_2.index ⟨(i 0).val / 5000, hlt⟩ (0 : Fin 2) = (i 0).val / 5000 := e.2.2.1
    omega
  | ⟨1, _⟩ =>
    show win0_2.index ⟨(i 0).val / 5000, hlt⟩ (1 : Fin 2) * 128 ≤ (i 1).val
      ∧ (i 1).val < win0_2.index ⟨(i 0).val / 5000, hlt⟩ (1 : Fin 2) * 128 + 128
    omega

/-- THE ARRAY the region leaves: the layer's stage applied to the arrays the region found. -/
theorem array (c : Dev nD) : (dat0 V c).arrAt 2 cfg0.N = Gcn.scaleRows (V c main_arg0) (V c main_v13) :=
  (dat0 V c).arrAt_eq_of_cover 2 _ (fun t _ => flushed V c t) cover

end Gcn.Region0

end
-- ==== Proof.Region1.lean ====
/-
  Region 1 as one whole-array function: rows scaled by the normalisation column, times the weights, plus the bias, rectified.

  The region's grid has 20 points; point `t` stages rows `5000·t … 5000·t + 4999` of each row-blocked array
  (block index `(t, 0)`), computes the tile, and writes it back to the same rows of the output. Entry `(r, q)` of
  the tile therefore lands at entry `(5000·t + r, q)` of the array and is computed from row `5000·t + r` of the
  inputs; every row `p < 100000` lies in the block of the point `p / 5000`, so the 20 blocks cover the array.
-/
import proofs.«166575_j13606456393829_1_alg».proof.Proof.Gen.KernelIdeal.Frame
import proofs.«166575_j13606456393829_1_alg».proof.Proof.Layer
import proofs.«166575_j13606456393829_1_alg».proof.Proof.Tile

set_option maxRecDepth 16384

noncomputable section

namespace Gcn.Region1

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

theorem hz1 : (![0] : Fin 1 → Nat) = fun _ => 0 := funext fun a => by fin_cases a; rfl

/-- The printed index maps, decided over the grid: the row-blocked windows' block index at point `t` is `(t, 0)`, the
    weights' and the bias's is the origin at every point. -/
theorem idx_facts : ∀ t : Fin cfg1.N, win1_0.index t (0 : Fin 2) = t.val ∧ win1_1.index t (0 : Fin 2) = t.val
    ∧ win1_0.index t (1 : Fin 2) = 0 ∧ win1_1.index t (1 : Fin 2) = 0
    ∧ win1_4.index t (0 : Fin 2) = t.val ∧ win1_4.index t (1 : Fin 2) = 0
    ∧ win1_2.index t (0 : Fin 2) = 0 ∧ win1_2.index t (1 : Fin 2) = 0 ∧ win1_3.index t (0 : Fin 1) = 0 :=
  (by decide +kernel : ∀ t : Fin grid1.N, _)

/-- Window 0's block at point `t` sits at rows `5000·t …` of its array. -/
theorem emb_in (t : Fin cfg1.N) (r : Fin 5000) (q : Fin 128) (h : t.val * 5000 + r.val < 100000) :
    ((cfg1.win 0).blk t).view.emb (ix2 r q) = ix2 (⟨t.val * 5000 + r.val, h⟩ : Fin 100000) q := by
  have e := idx_facts t
  funext a; apply Fin.ext
  match a with
  | ⟨0, _⟩ => show win1_0.index t (0 : Fin 2) * 5000 + 1 * r.val = t.val * 5000 + r.val; omega
  | ⟨1, _⟩ => show win1_0.index t (1 : Fin 2) * 128 + 1 * q.val = q.val; omega

/-- Window 1's block at point `t` sits at rows `5000·t …` of its array. -/
theorem emb_col (t : Fin cfg1.N) (r : Fin 5000) (q : Fin 1) (h : t.val * 5000 + r.val < 100000) :
    ((cfg1.win 1).blk t).view.emb (ix2 r q) = ix2 (⟨t.val * 5000 + r.val, h⟩ : Fin 100000) q := by
  have e := idx_facts t
  funext a; apply Fin.ext
  match a with
  | ⟨0, _⟩ => show win1_1.index t (0 : Fin 2) * 5000 + 1 * r.val = t.val * 5000 + r.val; omega
  | ⟨1, _⟩ => show win1_1.index t (1 : Fin 2) * 1 + 1 * q.val = q.val; omega

/-- Window 4's block at point `t` sits at rows `5000·t …` of its array. -/
theorem emb_out (t : Fin cfg1.N) (r : Fin 5000) (q : Fin 128) (h : t.val * 5000 + r.val < 100000) :
    ((cfg1.win 4).blk t).view.emb (ix2 r q) = ix2 (⟨t.val * 5000 + r.val, h⟩ : Fin 100000) q := by
  have e := idx_facts t
  funext a; apply Fin.ext
  match a with
  | ⟨0, _⟩ => show win1_4.index t (0 : Fin 2) * 5000 + 1 * r.val = t.val * 5000 + r.val; omega
  | ⟨1, _⟩ => show win1_4.index t (1 : Fin 2) * 128 + 1 * q.val = q.val; omega

/-- The weights' one block is the whole matrix. -/
theorem emb_w (t : Fin cfg1.N) (kk : Fin 128) (q : Fin 128) :
    ((cfg1.win 2).blk t).view.emb (ix2 kk q) = ix2 kk q := by
  have e := idx_facts t
  funext a; apply Fin.ext
  match a with
  | ⟨0, _⟩ => show win1_2.index t (0 : Fin 2) * 128 + 1 * kk.val = kk.val; omega
  | ⟨1, _⟩ => show win1_2.index t (1 : Fin 2) * 128 + 1 * q.val = q.val; omega

/-- The bias's one block is the whole vector. -/
theorem emb_b (t : Fin cfg1.N) (q : Fin 128) :
    ((cfg1.win 3).blk t).view.emb (ix1 q) = ix1 q := by
  have e := idx_facts t
  funext a; apply Fin.ext
  match a with
  | ⟨0, _⟩ => show win1_3.index t (0 : Fin 1) * 128 + 1 * q.val = q.val; omega

/-- WHAT POINT `t` WRITES BACK is block `t` of the dense stage of the arrays the region found. -/
theorem flushed (c : Dev nD) (t : Fin cfg1.N) :
    (dat1 V c).flushed 4 t
      = ((cfg1.win 4).blk t).view.read (Elt Ideal) (Gcn.relu128 (Gcn.dense128 (V c main_v25) (V c main_v14) (V c main_arg1) (V c main_arg2))) := by
  show (cfg1.win 4).cut (grid1.coords t) ((dat1 V c).after 4 t) = _
  rw [after1_4]
  unfold out1_4
  rw [View.canon_unit_zero hz2]
  simp only [View.ld_unit_zero (S := S5000x128) hz2, View.ld_unit_zero (S := S5000x1) hz2,
    View.ld_unit_zero (S := S128x128) hz2, View.ld_unit_zero (S := S128) hz1]
  funext j
  obtain ⟨r, q, rfl⟩ : ∃ (r : Fin 5000) (q : Fin 128), j = ix2 r q := ⟨j 0, j 1, eq_ix2 j⟩
  have hN : grid1.N = 20 := N_1
  have ht : t.val < grid1.N := t.isLt
  have hP : t.val * 5000 + r.val < 100000 := by have := r.isLt; omega
  show k1_pay1 (iblk1 V c 0 t) (iblk1 V c 1 t) (iblk1 V c 2 t) (iblk1 V c 3 t) (ix2 r q)
      = (Gcn.relu128 (Gcn.dense128 (V c main_v25) (V c main_v14) (V c main_arg1) (V c main_arg2))) (((cfg1.win 4).blk t).view.emb (ix2 r q))
  rw [emb_out t r q hP, Gcn.relu128_apply, Gcn.dense128_apply]
  refine (Gcn.Tile.dense1_apply (iblk1 V c 0 t) (iblk1 V c 1 t) (iblk1 V c 2 t) (iblk1 V c 3 t) r q).trans ?_
  refine congrArg (fun s => max s (Ideal.ofBits .f32 0x00000000#32)) (congrArg₂ (· + ·) (Finset.sum_congr rfl fun kk _ => ?_) ?_)
  · refine congrArg₂ (fun a b : EReal => a * b) (congrArg₂ (fun a b : EReal => a * b) ?_ ?_) ?_
    · show V c main_v25 (((cfg1.win 0).blk t).view.emb (ix2 r kk)) = _
      rw [emb_in t r kk hP]
    · show V c main_v14 (((cfg1.win 1).blk t).view.emb (ix2 r (0 : Fin 1))) = _
      rw [emb_col t r 0 hP]
    · show V c main_arg1 (((cfg1.win 2).blk t).view.emb (ix2 kk q)) = _
      rw [emb_w t kk q]
  · show V c main_arg2 (((cfg1.win 3).blk t).view.emb (ix1 q)) = _
    rw [emb_b t q]

/-- An entry of the array is in point `t`'s block iff each coordinate is in the block's range on its axis. -/
theorem mem_blk (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v26).slice (win1_4.rect t)).set ↔ _
  rw [View.set_slice_whole, Rect.mem_set_unit]
  exact Iff.rfl

/-- Every entry of the array is in the block of the point `row / 5000`. -/
theorem cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : grid1.N = 20 := N_1
  have hlt : (i 0).val / 5000 < grid1.N := by omega
  have e := idx_facts (⟨(i 0).val / 5000, hlt⟩ : Fin cfg1.N)
  refine ⟨⟨(i 0).val / 5000, hlt⟩, flush1_4 _, ?_⟩
  rw [mem_blk]
  intro a
  match a with
  | ⟨0, _⟩ =>
    show win1_4.index ⟨(i 0).val / 5000, hlt⟩ (0 : Fin 2) * 5000 ≤ (i 0).val
      ∧ (i 0).val < win1_4.index ⟨(i 0).val / 5000, hlt⟩ (0 : Fin 2) * 5000 + 5000
    have e0 : win1_4.index ⟨(i 0).val / 5000, hlt⟩ (0 : Fin 2) = (i 0).val / 5000 := e.2.2.2.2.1
    omega
  | ⟨1, _⟩ =>
    show win1_4.index ⟨(i 0).val / 5000, hlt⟩ (1 : Fin 2) * 128 ≤ (i 1).val
      ∧ (i 1).val < win1_4.index ⟨(i 0).val / 5000, hlt⟩ (1 : Fin 2) * 128 + 128
    omega

/-- THE ARRAY the region leaves: the layer's stage applied to the arrays the region found. -/
theorem array (c : Dev nD) : (dat1 V c).arrAt 4 cfg1.N = Gcn.relu128 (Gcn.dense128 (V c main_v25) (V c main_v14) (V c main_arg1) (V c main_arg2)) :=
  (dat1 V c).arrAt_eq_of_cover 4 _ (fun t _ => flushed V c t) cover

end Gcn.Region1

end
-- ==== Proof.Region2.lean ====
/-
  Region 2 as one whole-array function: row `p` of its first operand times entry `(p, 0)` of the normalisation column.

  The region's grid has 20 points; point `t` stages rows `5000·t … 5000·t + 4999` of each row-blocked array
  (block index `(t, 0)`), computes the tile, and writes it back to the same rows of the output. Entry `(r, q)` of
  the tile therefore lands at entry `(5000·t + r, q)` of the array and is computed from row `5000·t + r` of the
  inputs; every row `p < 100000` lies in the block of the point `p / 5000`, so the 20 blocks cover the array.
-/
import proofs.«166575_j13606456393829_1_alg».proof.Proof.Gen.KernelIdeal.Frame
import proofs.«166575_j13606456393829_1_alg».proof.Proof.Layer
import proofs.«166575_j13606456393829_1_alg».proof.Proof.Tile

set_option maxRecDepth 16384

noncomputable section

namespace Gcn.Region2

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps, decided over the grid: every window's block index at point `t` is `(t, 0)`. -/
theorem idx_facts : ∀ t : Fin cfg2.N, win2_0.index t (0 : Fin 2) = t.val ∧ win2_1.index t (0 : Fin 2) = t.val
    ∧ win2_2.index t (0 : Fin 2) = t.val ∧ win2_0.index t (1 : Fin 2) = 0 ∧ win2_1.index t (1 : Fin 2) = 0
    ∧ win2_2.index t (1 : Fin 2) = 0 :=
  (by decide +kernel : ∀ t : Fin grid2.N, _)

/-- Window 0's block at point `t` sits at rows `5000·t …` of its array. -/
theorem emb_in (t : Fin cfg2.N) (r : Fin 5000) (q : Fin 128) (h : t.val * 5000 + r.val < 100000) :
    ((cfg2.win 0).blk t).view.emb (ix2 r q) = ix2 (⟨t.val * 5000 + r.val, h⟩ : Fin 100000) q := by
  have e := idx_facts t
  funext a; apply Fin.ext
  match a with
  | ⟨0, _⟩ => show win2_0.index t (0 : Fin 2) * 5000 + 1 * r.val = t.val * 5000 + r.val; omega
  | ⟨1, _⟩ => show win2_0.index t (1 : Fin 2) * 128 + 1 * q.val = q.val; omega

/-- Window 1's block at point `t` sits at rows `5000·t …` of its array. -/
theorem emb_col (t : Fin cfg2.N) (r : Fin 5000) (q : Fin 1) (h : t.val * 5000 + r.val < 100000) :
    ((cfg2.win 1).blk t).view.emb (ix2 r q) = ix2 (⟨t.val * 5000 + r.val, h⟩ : Fin 100000) q := by
  have e := idx_facts t
  funext a; apply Fin.ext
  match a with
  | ⟨0, _⟩ => show win2_1.index t (0 : Fin 2) * 5000 + 1 * r.val = t.val * 5000 + r.val; omega
  | ⟨1, _⟩ => show win2_1.index t (1 : Fin 2) * 1 + 1 * q.val = q.val; omega

/-- Window 2's block at point `t` sits at rows `5000·t …` of its array. -/
theorem emb_out (t : Fin cfg2.N) (r : Fin 5000) (q : Fin 128) (h : t.val * 5000 + r.val < 100000) :
    ((cfg2.win 2).blk t).view.emb (ix2 r q) = ix2 (⟨t.val * 5000 + r.val, h⟩ : Fin 100000) q := by
  have e := idx_facts t
  funext a; apply Fin.ext
  match a with
  | ⟨0, _⟩ => show win2_2.index t (0 : Fin 2) * 5000 + 1 * r.val = t.val * 5000 + r.val; omega
  | ⟨1, _⟩ => show win2_2.index t (1 : Fin 2) * 128 + 1 * q.val = q.val; omega

/-- WHAT POINT `t` WRITES BACK is block `t` of the scaled array. -/
theorem flushed (c : Dev nD) (t : Fin cfg2.N) :
    (dat2 V c).flushed 2 t
      = ((cfg2.win 2).blk t).view.read (Elt Ideal) (Gcn.scaleRows (V c main_v26) (V c main_v13)) := by
  show (cfg2.win 2).cut (grid2.coords t) ((dat2 V c).after 2 t) = _
  rw [after2_2]
  unfold out2_2
  rw [View.canon_unit_zero hz2]
  simp only [View.ld_unit_zero (S := S5000x128) hz2, View.ld_unit_zero (S := S5000x1) hz2]
  funext j
  obtain ⟨r, q, rfl⟩ : ∃ (r : Fin 5000) (q : Fin 128), j = ix2 r q := ⟨j 0, j 1, eq_ix2 j⟩
  have hN : grid2.N = 20 := N_2
  have ht : t.val < grid2.N := t.isLt
  have hP : t.val * 5000 + r.val < 100000 := by have := r.isLt; omega
  show k2_pay1 (iblk2 V c 0 t) (iblk2 V c 1 t) (ix2 r q)
      = Gcn.scaleRows (V c main_v26) (V c main_v13) (((cfg2.win 2).blk t).view.emb (ix2 r q))
  rw [emb_out t r q hP, Gcn.scaleRows_apply]
  refine (Gcn.Tile.scale2_apply (iblk2 V c 0 t) (iblk2 V c 1 t) r q).trans ?_
  refine congrArg₂ (fun a b : EReal => a * b) ?_ ?_
  · show V c main_v26 (((cfg2.win 0).blk t).view.emb (ix2 r q)) = _
    rw [emb_in t r q hP]
  · show V c main_v13 (((cfg2.win 1).blk t).view.emb (ix2 r (0 : Fin 1))) = _
    rw [emb_col t r 0 hP]

/-- An entry of the array is in point `t`'s block iff each coordinate is in the block's range on its axis. -/
theorem mem_blk (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v27).slice (win2_2.rect t)).set ↔ _
  rw [View.set_slice_whole, Rect.mem_set_unit]
  exact Iff.rfl

/-- Every entry of the array is in the block of the point `row / 5000`. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : grid2.N = 20 := N_2
  have hlt : (i 0).val / 5000 < grid2.N := by omega
  have e := idx_facts (⟨(i 0).val / 5000, hlt⟩ : Fin cfg2.N)
  refine ⟨⟨(i 0).val / 5000, hlt⟩, flush2_2 _, ?_⟩
  rw [mem_blk]
  intro a
  match a with
  | ⟨0, _⟩ =>
    show win2_2.index ⟨(i 0).val / 5000, hlt⟩ (0 : Fin 2) * 5000 ≤ (i 0).val
      ∧ (i 0).val < win2_2.index ⟨(i 0).val / 5000, hlt⟩ (0 : Fin 2) * 5000 + 5000
    have e0 : win2_2.index ⟨(i 0).val / 5000, hlt⟩ (0 : Fin 2) = (i 0).val / 5000 := e.2.2.1
    omega
  | ⟨1, _⟩ =>
    show win2_2.index ⟨(i 0).val / 5000, hlt⟩ (1 : Fin 2) * 128 ≤ (i 1).val
      ∧ (i 1).val < win2_2.index ⟨(i 0).val / 5000, hlt⟩ (1 : Fin 2) * 128 + 128
    omega

/-- THE ARRAY the region leaves: the layer's stage applied to the arrays the region found. -/
theorem array (c : Dev nD) : (dat2 V c).arrAt 2 cfg2.N = Gcn.scaleRows (V c main_v26) (V c main_v13) :=
  (dat2 V c).arrAt_eq_of_cover 2 _ (fun t _ => flushed V c t) cover

end Gcn.Region2

end
-- ==== Proof.Region3.lean ====
/-
  Region 3 as one whole-array function: rows scaled by the normalisation column, times the weights, plus the bias, rectified.

  The region's grid has 20 points; point `t` stages rows `5000·t … 5000·t + 4999` of each row-blocked array
  (block index `(t, 0)`), computes the tile, and writes it back to the same rows of the output. Entry `(r, q)` of
  the tile therefore lands at entry `(5000·t + r, q)` of the array and is computed from row `5000·t + r` of the
  inputs; every row `p < 100000` lies in the block of the point `p / 5000`, so the 20 blocks cover the array.
-/
import proofs.«166575_j13606456393829_1_alg».proof.Proof.Gen.KernelIdeal.Frame
import proofs.«166575_j13606456393829_1_alg».proof.Proof.Layer
import proofs.«166575_j13606456393829_1_alg».proof.Proof.Tile

set_option maxRecDepth 16384

noncomputable section

namespace Gcn.Region3

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

theorem hz1 : (![0] : Fin 1 → Nat) = fun _ => 0 := funext fun a => by fin_cases a; rfl

/-- The printed index maps, decided over the grid: the row-blocked windows' block index at point `t` is `(t, 0)`, the
    weights' and the bias's is the origin at every point. -/
theorem idx_facts : ∀ t : Fin cfg3.N, win3_0.index t (0 : Fin 2) = t.val ∧ win3_1.index t (0 : Fin 2) = t.val
    ∧ win3_0.index t (1 : Fin 2) = 0 ∧ win3_1.index t (1 : Fin 2) = 0
    ∧ win3_4.index t (0 : Fin 2) = t.val ∧ win3_4.index t (1 : Fin 2) = 0
    ∧ win3_2.index t (0 : Fin 2) = 0 ∧ win3_2.index t (1 : Fin 2) = 0 ∧ win3_3.index t (0 : Fin 1) = 0 :=
  (by decide +kernel : ∀ t : Fin grid3.N, _)

/-- Window 0's block at point `t` sits at rows `5000·t …` of its array. -/
theorem emb_in (t : Fin cfg3.N) (r : Fin 5000) (q : Fin 128) (h : t.val * 5000 + r.val < 100000) :
    ((cfg3.win 0).blk t).view.emb (ix2 r q) = ix2 (⟨t.val * 5000 + r.val, h⟩ : Fin 100000) q := by
  have e := idx_facts t
  funext a; apply Fin.ext
  match a with
  | ⟨0, _⟩ => show win3_0.index t (0 : Fin 2) * 5000 + 1 * r.val = t.val * 5000 + r.val; omega
  | ⟨1, _⟩ => show win3_0.index t (1 : Fin 2) * 128 + 1 * q.val = q.val; omega

/-- Window 1's block at point `t` sits at rows `5000·t …` of its array. -/
theorem emb_col (t : Fin cfg3.N) (r : Fin 5000) (q : Fin 1) (h : t.val * 5000 + r.val < 100000) :
    ((cfg3.win 1).blk t).view.emb (ix2 r q) = ix2 (⟨t.val * 5000 + r.val, h⟩ : Fin 100000) q := by
  have e := idx_facts t
  funext a; apply Fin.ext
  match a with
  | ⟨0, _⟩ => show win3_1.index t (0 : Fin 2) * 5000 + 1 * r.val = t.val * 5000 + r.val; omega
  | ⟨1, _⟩ => show win3_1.index t (1 : Fin 2) * 1 + 1 * q.val = q.val; omega

/-- Window 4's block at point `t` sits at rows `5000·t …` of its array. -/
theorem emb_out (t : Fin cfg3.N) (r : Fin 5000) (q : Fin 128) (h : t.val * 5000 + r.val < 100000) :
    ((cfg3.win 4).blk t).view.emb (ix2 r q) = ix2 (⟨t.val * 5000 + r.val, h⟩ : Fin 100000) q := by
  have e := idx_facts t
  funext a; apply Fin.ext
  match a with
  | ⟨0, _⟩ => show win3_4.index t (0 : Fin 2) * 5000 + 1 * r.val = t.val * 5000 + r.val; omega
  | ⟨1, _⟩ => show win3_4.index t (1 : Fin 2) * 128 + 1 * q.val = q.val; omega

/-- The weights' one block is the whole matrix. -/
theorem emb_w (t : Fin cfg3.N) (kk : Fin 128) (q : Fin 128) :
    ((cfg3.win 2).blk t).view.emb (ix2 kk q) = ix2 kk q := by
  have e := idx_facts t
  funext a; apply Fin.ext
  match a with
  | ⟨0, _⟩ => show win3_2.index t (0 : Fin 2) * 128 + 1 * kk.val = kk.val; omega
  | ⟨1, _⟩ => show win3_2.index t (1 : Fin 2) * 128 + 1 * q.val = q.val; omega

/-- The bias's one block is the whole vector. -/
theorem emb_b (t : Fin cfg3.N) (q : Fin 128) :
    ((cfg3.win 3).blk t).view.emb (ix1 q) = ix1 q := by
  have e := idx_facts t
  funext a; apply Fin.ext
  match a with
  | ⟨0, _⟩ => show win3_3.index t (0 : Fin 1) * 128 + 1 * q.val = q.val; omega

/-- WHAT POINT `t` WRITES BACK is block `t` of the dense stage of the arrays the region found. -/
theorem flushed (c : Dev nD) (t : Fin cfg3.N) :
    (dat3 V c).flushed 4 t
      = ((cfg3.win 4).blk t).view.read (Elt Ideal) (Gcn.relu128 (Gcn.dense128 (V c main_v37) (V c main_v14) (V c main_arg3) (V c main_arg4))) := by
  show (cfg3.win 4).cut (grid3.coords t) ((dat3 V c).after 4 t) = _
  rw [after3_4]
  unfold out3_4
  rw [View.canon_unit_zero hz2]
  simp only [View.ld_unit_zero (S := S5000x128) hz2, View.ld_unit_zero (S := S5000x1) hz2,
    View.ld_unit_zero (S := S128x128) hz2, View.ld_unit_zero (S := S128) hz1]
  funext j
  obtain ⟨r, q, rfl⟩ : ∃ (r : Fin 5000) (q : Fin 128), j = ix2 r q := ⟨j 0, j 1, eq_ix2 j⟩
  have hN : grid3.N = 20 := N_3
  have ht : t.val < grid3.N := t.isLt
  have hP : t.val * 5000 + r.val < 100000 := by have := r.isLt; omega
  show k3_pay1 (iblk3 V c 0 t) (iblk3 V c 1 t) (iblk3 V c 2 t) (iblk3 V c 3 t) (ix2 r q)
      = (Gcn.relu128 (Gcn.dense128 (V c main_v37) (V c main_v14) (V c main_arg3) (V c main_arg4))) (((cfg3.win 4).blk t).view.emb (ix2 r q))
  rw [emb_out t r q hP, Gcn.relu128_apply, Gcn.dense128_apply]
  refine (Gcn.Tile.dense3_apply (iblk3 V c 0 t) (iblk3 V c 1 t) (iblk3 V c 2 t) (iblk3 V c 3 t) r q).trans ?_
  refine congrArg (fun s => max s (Ideal.ofBits .f32 0x00000000#32)) (congrArg₂ (· + ·) (Finset.sum_congr rfl fun kk _ => ?_) ?_)
  · refine congrArg₂ (fun a b : EReal => a * b) (congrArg₂ (fun a b : EReal => a * b) ?_ ?_) ?_
    · show V c main_v37 (((cfg3.win 0).blk t).view.emb (ix2 r kk)) = _
      rw [emb_in t r kk hP]
    · show V c main_v14 (((cfg3.win 1).blk t).view.emb (ix2 r (0 : Fin 1))) = _
      rw [emb_col t r 0 hP]
    · show V c main_arg3 (((cfg3.win 2).blk t).view.emb (ix2 kk q)) = _
      rw [emb_w t kk q]
  · show V c main_arg4 (((cfg3.win 3).blk t).view.emb (ix1 q)) = _
    rw [emb_b t q]

/-- An entry of the array is in point `t`'s block iff each coordinate is in the block's range on its axis. -/
theorem mem_blk (t : Fin cfg3.N) (i : S100000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v38).slice (win3_4.rect t)).set ↔ _
  rw [View.set_slice_whole, Rect.mem_set_unit]
  exact Iff.rfl

/-- Every entry of the array is in the block of the point `row / 5000`. -/
theorem cover (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  have hN : grid3.N = 20 := N_3
  have hlt : (i 0).val / 5000 < grid3.N := by omega
  have e := idx_facts (⟨(i 0).val / 5000, hlt⟩ : Fin cfg3.N)
  refine ⟨⟨(i 0).val / 5000, hlt⟩, flush3_4 _, ?_⟩
  rw [mem_blk]
  intro a
  match a with
  | ⟨0, _⟩ =>
    show win3_4.index ⟨(i 0).val / 5000, hlt⟩ (0 : Fin 2) * 5000 ≤ (i 0).val
      ∧ (i 0).val < win3_4.index ⟨(i 0).val / 5000, hlt⟩ (0 : Fin 2) * 5000 + 5000
    have e0 : win3_4.index ⟨(i 0).val / 5000, hlt⟩ (0 : Fin 2) = (i 0).val / 5000 := e.2.2.2.2.1
    omega
  | ⟨1, _⟩ =>
    show win3_4.index ⟨(i 0).val / 5000, hlt⟩ (1 : Fin 2) * 128 ≤ (i 1).val
      ∧ (i 1).val < win3_4.index ⟨(i 0).val / 5000, hlt⟩ (1 : Fin 2) * 128 + 128
    omega

/-- THE ARRAY the region leaves: the layer's stage applied to the arrays the region found. -/
theorem array (c : Dev nD) : (dat3 V c).arrAt 4 cfg3.N = Gcn.relu128 (Gcn.dense128 (V c main_v37) (V c main_v14) (V c main_arg3) (V c main_arg4)) :=
  (dat3 V c).arrAt_eq_of_cover 4 _ (fun t _ => flushed V c t) cover

end Gcn.Region3

end
-- ==== Proof.Region4.lean ====
/-
  Region 4 as one whole-array function: row `p` of its first operand times entry `(p, 0)` of the normalisation column.

  The region's grid has 20 points; point `t` stages rows `5000·t … 5000·t + 4999` of each row-blocked array
  (block index `(t, 0)`), computes the tile, and writes it back to the same rows of the output. Entry `(r, q)` of
  the tile therefore lands at entry `(5000·t + r, q)` of the array and is computed from row `5000·t + r` of the
  inputs; every row `p < 100000` lies in the block of the point `p / 5000`, so the 20 blocks cover the array.
-/
import proofs.«166575_j13606456393829_1_alg».proof.Proof.Gen.KernelIdeal.Frame
import proofs.«166575_j13606456393829_1_alg».proof.Proof.Layer
import proofs.«166575_j13606456393829_1_alg».proof.Proof.Tile

set_option maxRecDepth 16384

noncomputable section

namespace Gcn.Region4

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps, decided over the grid: every window's block index at point `t` is `(t, 0)`. -/
theorem idx_facts : ∀ t : Fin cfg4.N, win4_0.index t (0 : Fin 2) = t.val ∧ win4_1.index t (0 : Fin 2) = t.val
    ∧ win4_2.index t (0 : Fin 2) = t.val ∧ win4_0.index t (1 : Fin 2) = 0 ∧ win4_1.index t (1 : Fin 2) = 0
    ∧ win4_2.index t (1 : Fin 2) = 0 :=
  (by decide +kernel : ∀ t : Fin grid4.N, _)

/-- Window 0's block at point `t` sits at rows `5000·t …` of its array. -/
theorem emb_in (t : Fin cfg4.N) (r : Fin 5000) (q : Fin 128) (h : t.val * 5000 + r.val < 100000) :
    ((cfg4.win 0).blk t).view.emb (ix2 r q) = ix2 (⟨t.val * 5000 + r.val, h⟩ : Fin 100000) q := by
  have e := idx_facts t
  funext a; apply Fin.ext
  match a with
  | ⟨0, _⟩ => show win4_0.index t (0 : Fin 2) * 5000 + 1 * r.val = t.val * 5000 + r.val; omega
  | ⟨1, _⟩ => show win4_0.index t (1 : Fin 2) * 128 + 1 * q.val = q.val; omega

/-- Window 1's block at point `t` sits at rows `5000·t …` of its array. -/
theorem emb_col (t : Fin cfg4.N) (r : Fin 5000) (q : Fin 1) (h : t.val * 5000 + r.val < 100000) :
    ((cfg4.win 1).blk t).view.emb (ix2 r q) = ix2 (⟨t.val * 5000 + r.val, h⟩ : Fin 100000) q := by
  have e := idx_facts t
  funext a; apply Fin.ext
  match a with
  | ⟨0, _⟩ => show win4_1.index t (0 : Fin 2) * 5000 + 1 * r.val = t.val * 5000 + r.val; omega
  | ⟨1, _⟩ => show win4_1.index t (1 : Fin 2) * 1 + 1 * q.val = q.val; omega

/-- Window 2's block at point `t` sits at rows `5000·t …` of its array. -/
theorem emb_out (t : Fin cfg4.N) (r : Fin 5000) (q : Fin 128) (h : t.val * 5000 + r.val < 100000) :
    ((cfg4.win 2).blk t).view.emb (ix2 r q) = ix2 (⟨t.val * 5000 + r.val, h⟩ : Fin 100000) q := by
  have e := idx_facts t
  funext a; apply Fin.ext
  match a with
  | ⟨0, _⟩ => show win4_2.index t (0 : Fin 2) * 5000 + 1 * r.val = t.val * 5000 + r.val; omega
  | ⟨1, _⟩ => show win4_2.index t (1 : Fin 2) * 128 + 1 * q.val = q.val; omega

/-- WHAT POINT `t` WRITES BACK is block `t` of the scaled array. -/
theorem flushed (c : Dev nD) (t : Fin cfg4.N) :
    (dat4 V c).flushed 2 t
      = ((cfg4.win 2).blk t).view.read (Elt Ideal) (Gcn.scaleRows (V c main_v38) (V c main_v13)) := by
  show (cfg4.win 2).cut (grid4.coords t) ((dat4 V c).after 2 t) = _
  rw [after4_2]
  unfold out4_2
  rw [View.canon_unit_zero hz2]
  simp only [View.ld_unit_zero (S := S5000x128) hz2, View.ld_unit_zero (S := S5000x1) hz2]
  funext j
  obtain ⟨r, q, rfl⟩ : ∃ (r : Fin 5000) (q : Fin 128), j = ix2 r q := ⟨j 0, j 1, eq_ix2 j⟩
  have hN : grid4.N = 20 := N_4
  have ht : t.val < grid4.N := t.isLt
  have hP : t.val * 5000 + r.val < 100000 := by have := r.isLt; omega
  show k4_pay1 (iblk4 V c 0 t) (iblk4 V c 1 t) (ix2 r q)
      = Gcn.scaleRows (V c main_v38) (V c main_v13) (((cfg4.win 2).blk t).view.emb (ix2 r q))
  rw [emb_out t r q hP, Gcn.scaleRows_apply]
  refine (Gcn.Tile.scale4_apply (iblk4 V c 0 t) (iblk4 V c 1 t) r q).trans ?_
  refine congrArg₂ (fun a b : EReal => a * b) ?_ ?_
  · show V c main_v38 (((cfg4.win 0).blk t).view.emb (ix2 r q)) = _
    rw [emb_in t r q hP]
  · show V c main_v13 (((cfg4.win 1).blk t).view.emb (ix2 r (0 : Fin 1))) = _
    rw [emb_col t r 0 hP]

/-- An entry of the array is in point `t`'s block iff each coordinate is in the block's range on its axis. -/
theorem mem_blk (t : Fin cfg4.N) (i : S100000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v39).slice (win4_2.rect t)).set ↔ _
  rw [View.set_slice_whole, Rect.mem_set_unit]
  exact Iff.rfl

/-- Every entry of the array is in the block of the point `row / 5000`. -/
theorem cover (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have hN : grid4.N = 20 := N_4
  have hlt : (i 0).val / 5000 < grid4.N := by omega
  have e := idx_facts (⟨(i 0).val / 5000, hlt⟩ : Fin cfg4.N)
  refine ⟨⟨(i 0).val / 5000, hlt⟩, flush4_2 _, ?_⟩
  rw [mem_blk]
  intro a
  match a with
  | ⟨0, _⟩ =>
    show win4_2.index ⟨(i 0).val / 5000, hlt⟩ (0 : Fin 2) * 5000 ≤ (i 0).val
      ∧ (i 0).val < win4_2.index ⟨(i 0).val / 5000, hlt⟩ (0 : Fin 2) * 5000 + 5000
    have e0 : win4_2.index ⟨(i 0).val / 5000, hlt⟩ (0 : Fin 2) = (i 0).val / 5000 := e.2.2.1
    omega
  | ⟨1, _⟩ =>
    show win4_2.index ⟨(i 0).val / 5000, hlt⟩ (1 : Fin 2) * 128 ≤ (i 1).val
      ∧ (i 1).val < win4_2.index ⟨(i 0).val / 5000, hlt⟩ (1 : Fin 2) * 128 + 128
    omega

/-- THE ARRAY the region leaves: the layer's stage applied to the arrays the region found. -/
theorem array (c : Dev nD) : (dat4 V c).arrAt 2 cfg4.N = Gcn.scaleRows (V c main_v38) (V c main_v13) :=
  (dat4 V c).arrAt_eq_of_cover 2 _ (fun t _ => flushed V c t) cover

end Gcn.Region4

end
-- ==== Proof.Region5.lean ====
/-
  Region 5 as one whole-array function: rows scaled by the normalisation column, times the weights, plus the bias.

  The region's grid has 20 points; point `t` stages rows `5000·t … 5000·t + 4999` of each row-blocked array
  (block index `(t, 0)`), computes the tile, and writes it back to the same rows of the output. Entry `(r, q)` of
  the tile therefore lands at entry `(5000·t + r, q)` of the array and is computed from row `5000·t + r` of the
  inputs; every row `p < 100000` lies in the block of the point `p / 5000`, so the 20 blocks cover the array.
-/
import proofs.«166575_j13606456393829_1_alg».proof.Proof.Gen.KernelIdeal.Frame
import proofs.«166575_j13606456393829_1_alg».proof.Proof.Layer
import proofs.«166575_j13606456393829_1_alg».proof.Proof.Tile

set_option maxRecDepth 16384

noncomputable section

namespace Gcn.Region5

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

theorem hz1 : (![0] : Fin 1 → Nat) = fun _ => 0 := funext fun a => by fin_cases a; rfl

/-- The printed index maps, decided over the grid: the row-blocked windows' block index at point `t` is `(t, 0)`, the
    weights' and the bias's is the origin at every point. -/
theorem idx_facts : ∀ t : Fin cfg5.N, win5_0.index t (0 : Fin 2) = t.val ∧ win5_1.index t (0 : Fin 2) = t.val
    ∧ win5_0.index t (1 : Fin 2) = 0 ∧ win5_1.index t (1 : Fin 2) = 0
    ∧ win5_4.index t (0 : Fin 2) = t.val ∧ win5_4.index t (1 : Fin 2) = 0
    ∧ win5_2.index t (0 : Fin 2) = 0 ∧ win5_2.index t (1 : Fin 2) = 0 ∧ win5_3.index t (0 : Fin 1) = 0 :=
  (by decide +kernel : ∀ t : Fin grid5.N, _)

/-- Window 0's block at point `t` sits at rows `5000·t …` of its array. -/
theorem emb_in (t : Fin cfg5.N) (r : Fin 5000) (q : Fin 128) (h : t.val * 5000 + r.val < 100000) :
    ((cfg5.win 0).blk t).view.emb (ix2 r q) = ix2 (⟨t.val * 5000 + r.val, h⟩ : Fin 100000) q := by
  have e := idx_facts t
  funext a; apply Fin.ext
  match a with
  | ⟨0, _⟩ => show win5_0.index t (0 : Fin 2) * 5000 + 1 * r.val = t.val * 5000 + r.val; omega
  | ⟨1, _⟩ => show win5_0.index t (1 : Fin 2) * 128 + 1 * q.val = q.val; omega

/-- Window 1's block at point `t` sits at rows `5000·t …` of its array. -/
theorem emb_col (t : Fin cfg5.N) (r : Fin 5000) (q : Fin 1) (h : t.val * 5000 + r.val < 100000) :
    ((cfg5.win 1).blk t).view.emb (ix2 r q) = ix2 (⟨t.val * 5000 + r.val, h⟩ : Fin 100000) q := by
  have e := idx_facts t
  funext a; apply Fin.ext
  match a with
  | ⟨0, _⟩ => show win5_1.index t (0 : Fin 2) * 5000 + 1 * r.val = t.val * 5000 + r.val; omega
  | ⟨1, _⟩ => show win5_1.index t (1 : Fin 2) * 1 + 1 * q.val = q.val; omega

/-- Window 4's block at point `t` sits at rows `5000·t …` of its array. -/
theorem emb_out (t : Fin cfg5.N) (r : Fin 5000) (q : Fin 64) (h : t.val * 5000 + r.val < 100000) :
    ((cfg5.win 4).blk t).view.emb (ix2 r q) = ix2 (⟨t.val * 5000 + r.val, h⟩ : Fin 100000) q := by
  have e := idx_facts t
  funext a; apply Fin.ext
  match a with
  | ⟨0, _⟩ => show win5_4.index t (0 : Fin 2) * 5000 + 1 * r.val = t.val * 5000 + r.val; omega
  | ⟨1, _⟩ => show win5_4.index t (1 : Fin 2) * 64 + 1 * q.val = q.val; omega

/-- The weights' one block is the whole matrix. -/
theorem emb_w (t : Fin cfg5.N) (kk : Fin 128) (q : Fin 64) :
    ((cfg5.win 2).blk t).view.emb (ix2 kk q) = ix2 kk q := by
  have e := idx_facts t
  funext a; apply Fin.ext
  match a with
  | ⟨0, _⟩ => show win5_2.index t (0 : Fin 2) * 128 + 1 * kk.val = kk.val; omega
  | ⟨1, _⟩ => show win5_2.index t (1 : Fin 2) * 64 + 1 * q.val = q.val; omega

/-- The bias's one block is the whole vector. -/
theorem emb_b (t : Fin cfg5.N) (q : Fin 64) :
    ((cfg5.win 3).blk t).view.emb (ix1 q) = ix1 q := by
  have e := idx_facts t
  funext a; apply Fin.ext
  match a with
  | ⟨0, _⟩ => show win5_3.index t (0 : Fin 1) * 64 + 1 * q.val = q.val; omega

/-- WHAT POINT `t` WRITES BACK is block `t` of the dense stage of the arrays the region found. -/
theorem flushed (c : Dev nD) (t : Fin cfg5.N) :
    (dat5 V c).flushed 4 t
      = ((cfg5.win 4).blk t).view.read (Elt Ideal) (Gcn.dense64 (V c main_v49) (V c main_v14) (V c main_arg5) (V c main_arg6)) := by
  show (cfg5.win 4).cut (grid5.coords t) ((dat5 V c).after 4 t) = _
  rw [after5_4]
  unfold out5_4
  rw [View.canon_unit_zero hz2]
  simp only [View.ld_unit_zero (S := S5000x128) hz2, View.ld_unit_zero (S := S5000x1) hz2,
    View.ld_unit_zero (S := S128x64) hz2, View.ld_unit_zero (S := S64) hz1]
  funext j
  obtain ⟨r, q, rfl⟩ : ∃ (r : Fin 5000) (q : Fin 64), j = ix2 r q := ⟨j 0, j 1, eq_ix2 j⟩
  have hN : grid5.N = 20 := N_5
  have ht : t.val < grid5.N := t.isLt
  have hP : t.val * 5000 + r.val < 100000 := by have := r.isLt; omega
  show k5_pay1 (iblk5 V c 0 t) (iblk5 V c 1 t) (iblk5 V c 2 t) (iblk5 V c 3 t) (ix2 r q)
      = (Gcn.dense64 (V c main_v49) (V c main_v14) (V c main_arg5) (V c main_arg6)) (((cfg5.win 4).blk t).view.emb (ix2 r q))
  rw [emb_out t r q hP, Gcn.dense64_apply]
  refine (Gcn.Tile.dense5_apply (iblk5 V c 0 t) (iblk5 V c 1 t) (iblk5 V c 2 t) (iblk5 V c 3 t) r q).trans ?_
  refine (congrArg₂ (· + ·) (Finset.sum_congr rfl fun kk _ => ?_) ?_)
  · refine congrArg₂ (fun a b : EReal => a * b) (congrArg₂ (fun a b : EReal => a * b) ?_ ?_) ?_
    · show V c main_v49 (((cfg5.win 0).blk t).view.emb (ix2 r kk)) = _
      rw [emb_in t r kk hP]
    · show V c main_v14 (((cfg5.win 1).blk t).view.emb (ix2 r (0 : Fin 1))) = _
      rw [emb_col t r 0 hP]
    · show V c main_arg5 (((cfg5.win 2).blk t).view.emb (ix2 kk q)) = _
      rw [emb_w t kk q]
  · show V c main_arg6 (((cfg5.win 3).blk t).view.emb (ix1 q)) = _
    rw [emb_b t q]

/-- An entry of the array is in point `t`'s block iff each coordinate is in the block's range on its axis. -/
theorem mem_blk (t : Fin cfg5.N) (i : S100000x64.Idx) :
    i ∈ ((cfg5.win 4).blk t).view.set ↔ ∀ a : Fin 2, win5_4.index t a * S5000x64.size a ≤ (i a).val
      ∧ (i a).val < win5_4.index t a * S5000x64.size a + S5000x64.size a := by
  show i ∈ ((View.whole main_v50).slice (win5_4.rect t)).set ↔ _
  rw [View.set_slice_whole, Rect.mem_set_unit]
  exact Iff.rfl

/-- Every entry of the array is in the block of the point `row / 5000`. -/
theorem cover (i : S100000x64.Idx) :
    ∃ t : Fin cfg5.N, (cfg5.win 4).flush t = true ∧ i ∈ ((cfg5.win 4).blk t).view.set := by
  have hi0 : (i 0).val < 100000 := (i 0).isLt
  have hi1 : (i 1).val < 64 := (i 1).isLt
  have hN : grid5.N = 20 := N_5
  have hlt : (i 0).val / 5000 < grid5.N := by omega
  have e := idx_facts (⟨(i 0).val / 5000, hlt⟩ : Fin cfg5.N)
  refine ⟨⟨(i 0).val / 5000, hlt⟩, flush5_4 _, ?_⟩
  rw [mem_blk]
  intro a
  match a with
  | ⟨0, _⟩ =>
    show win5_4.index ⟨(i 0).val / 5000, hlt⟩ (0 : Fin 2) * 5000 ≤ (i 0).val
      ∧ (i 0).val < win5_4.index ⟨(i 0).val / 5000, hlt⟩ (0 : Fin 2) * 5000 + 5000
    have e0 : win5_4.index ⟨(i 0).val / 5000, hlt⟩ (0 : Fin 2) = (i 0).val / 5000 := e.2.2.2.2.1
    omega
  | ⟨1, _⟩ =>
    show win5_4.index ⟨(i 0).val / 5000, hlt⟩ (1 : Fin 2) * 64 ≤ (i 1).val
      ∧ (i 1).val < win5_4.index ⟨(i 0).val / 5000, hlt⟩ (1 : Fin 2) * 64 + 64
    omega

/-- THE ARRAY the region leaves: the layer's stage applied to the arrays the region found. -/
theorem array (c : Dev nD) : (dat5 V c).arrAt 4 cfg5.N = Gcn.dense64 (V c main_v49) (V c main_v14) (V c main_arg5) (V c main_arg6) :=
  (dat5 V c).arrAt_eq_of_cover 4 _ (fun t _ => flushed V c t) cover

end Gcn.Region5

end
-- ==== Proof.Fold.lean ====
/-
  The kernel's run, read back: what each array holds at each boundary between the host stretches and the regions.

  The program is a chain of fourteen segments — five host stretches computing the two normalisation columns, then per
  layer a row-scaling region, a host stretch (gather and scatter-add along the edges) and a dense region. The contents
  of the device's buffers at the boundaries are a fold through the chain. A buffer that a segment does not write
  keeps its contents across it: a host stretch writes only its operations' results, a region only its output array.
  Walking each operand back to where it was produced gives, boundary by boundary,
      scaled = h ⊙ nrm src,   summed = agg scaled,   h' = max ((summed ⊙ nrm dst) · W + b, 0),
  so the three results end at the three layers of `Glue` applied to the launch contents of the arguments.
-/
import proofs.«166575_j13606456393829_1_alg».proof.Proof.Gen.KernelIdeal.Frame
import proofs.«166575_j13606456393829_1_alg».proof.Proof.Glue
import proofs.«166575_j13606456393829_1_alg».proof.Proof.Prelude
import proofs.«166575_j13606456393829_1_alg».proof.Proof.Region0
import proofs.«166575_j13606456393829_1_alg».proof.Proof.Region1
import proofs.«166575_j13606456393829_1_alg».proof.Proof.Region2
import proofs.«166575_j13606456393829_1_alg».proof.Proof.Region3
import proofs.«166575_j13606456393829_1_alg».proof.Proof.Region4
import proofs.«166575_j13606456393829_1_alg».proof.Proof.Region5
import Idealize.ShloMosaic.Lib.StableHlo.Run

set_option maxRecDepth 16384

noncomputable section

namespace Gcn.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-! ## The run, with every buffer of the device at the last boundary's contents -/

set_option backward.isDefEq.respectTransparency.types false in
/-- Every weakly fair execution terminates, nothing faulting, and every buffer that is not scoped to a region ends at
    the contents the fold gives it at the last boundary. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h => h)

/-! ## A buffer a segment does not write keeps its contents -/

/-- A host stretch leaves a buffer none of its operations writes. -/
macro "host_keep" : tactic => `(tactic|
  exact StableHlo.after_of_forall_not_mem _ _ (List.forall_iff_forall_mem.mp (by
    simp only [hostOps0, hostOps0_1, hostOps0_2, hostOps0_3, hostOps0_4, hostOps1, hostOps3, hostOps5,
      List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

theorem keep_arg0_5_0 (c : Dev nD) :
    W5 m ρ c (Proc.devRef .tc main_arg0) = W0 m ρ c (Proc.devRef .tc main_arg0) :=
  calc W5 m ρ c (Proc.devRef .tc main_arg0)
    _ = W4 m ρ c (Proc.devRef .tc main_arg0) := (by host_keep)
    _ = W3 m ρ c (Proc.devRef .tc main_arg0) := (by host_keep)
    _ = W2 m ρ c (Proc.devRef .tc main_arg0) := (by host_keep)
    _ = W1 m ρ c (Proc.devRef .tc main_arg0) := (by host_keep)
    _ = W0 m ρ c (Proc.devRef .tc main_arg0) := (by host_keep)

theorem keep_arg1_14_7 (c : Dev nD) :
    W14 m ρ c (Proc.devRef .tc main_arg1) = W7 m ρ c (Proc.devRef .tc main_arg1) :=
  calc W14 m ρ c (Proc.devRef .tc main_arg1)
    _ = W13 m ρ c (Proc.devRef .tc main_arg1) := (W14_of_ne m ρ c main_arg1 (by decide))
    _ = W12 m ρ c (Proc.devRef .tc main_arg1) := (by host_keep)
    _ = W11 m ρ c (Proc.devRef .tc main_arg1) := (W12_of_ne m ρ c main_arg1 (by decide))
    _ = W10 m ρ c (Proc.devRef .tc main_arg1) := (W11_of_ne m ρ c main_arg1 (by decide))
    _ = W9 m ρ c (Proc.devRef .tc main_arg1) := (by host_keep)
    _ = W8 m ρ c (Proc.devRef .tc main_arg1) := (W9_of_ne m ρ c main_arg1 (by decide))
    _ = W7 m ρ c (Proc.devRef .tc main_arg1) := ((W8_arr m ρ c 2).trans (((dat1 (V7 m ρ) c).arrAt_in 2 rfl _).trans (A_eq1 (V7 m ρ) c 2)))

theorem keep_arg2_14_7 (c : Dev nD) :
    W14 m ρ c (Proc.devRef .tc main_arg2) = W7 m ρ c (Proc.devRef .tc main_arg2) :=
  calc W14 m ρ c (Proc.devRef .tc main_arg2)
    _ = W13 m ρ c (Proc.devRef .tc main_arg2) := (W14_of_ne m ρ c main_arg2 (by decide))
    _ = W12 m ρ c (Proc.devRef .tc main_arg2) := (by host_keep)
    _ = W11 m ρ c (Proc.devRef .tc main_arg2) := (W12_of_ne m ρ c main_arg2 (by decide))
    _ = W10 m ρ c (Proc.devRef .tc main_arg2) := (W11_of_ne m ρ c main_arg2 (by decide))
    _ = W9 m ρ c (Proc.devRef .tc main_arg2) := (by host_keep)
    _ = W8 m ρ c (Proc.devRef .tc main_arg2) := (W9_of_ne m ρ c main_arg2 (by decide))
    _ = W7 m ρ c (Proc.devRef .tc main_arg2) := ((W8_arr m ρ c 3).trans (((dat1 (V7 m ρ) c).arrAt_in 3 rfl _).trans (A_eq1 (V7 m ρ) c 3)))

theorem keep_arg3_14_10 (c : Dev nD) :
    W14 m ρ c (Proc.devRef .tc main_arg3) = W10 m ρ c (Proc.devRef .tc main_arg3) :=
  calc W14 m ρ c (Proc.devRef .tc main_arg3)
    _ = W13 m ρ c (Proc.devRef .tc main_arg3) := (W14_of_ne m ρ c main_arg3 (by decide))
    _ = W12 m ρ c (Proc.devRef .tc main_arg3) := (by host_keep)
    _ = W11 m ρ c (Proc.devRef .tc main_arg3) := (W12_of_ne m ρ c main_arg3 (by decide))
    _ = W10 m ρ c (Proc.devRef .tc main_arg3) := ((W11_arr m ρ c 2).trans (((dat3 (V10 m ρ) c).arrAt_in 2 rfl _).trans (A_eq3 (V10 m ρ) c 2)))

theorem keep_arg4_14_10 (c : Dev nD) :
    W14 m ρ c (Proc.devRef .tc main_arg4) = W10 m ρ c (Proc.devRef .tc main_arg4) :=
  calc W14 m ρ c (Proc.devRef .tc main_arg4)
    _ = W13 m ρ c (Proc.devRef .tc main_arg4) := (W14_of_ne m ρ c main_arg4 (by decide))
    _ = W12 m ρ c (Proc.devRef .tc main_arg4) := (by host_keep)
    _ = W11 m ρ c (Proc.devRef .tc main_arg4) := (W12_of_ne m ρ c main_arg4 (by decide))
    _ = W10 m ρ c (Proc.devRef .tc main_arg4) := ((W11_arr m ρ c 3).trans (((dat3 (V10 m ρ) c).arrAt_in 3 rfl _).trans (A_eq3 (V10 m ρ) c 3)))

theorem keep_arg5_14_13 (c : Dev nD) :
    W14 m ρ c (Proc.devRef .tc main_arg5) = W13 m ρ c (Proc.devRef .tc main_arg5) :=
  calc W14 m ρ c (Proc.devRef .tc main_arg5)
    _ = W13 m ρ c (Proc.devRef .tc main_arg5) := ((W14_arr m ρ c 2).trans (((dat5 (V13 m ρ) c).arrAt_in 2 rfl _).trans (A_eq5 (V13 m ρ) c 2)))

theorem keep_arg6_14_13 (c : Dev nD) :
    W14 m ρ c (Proc.devRef .tc main_arg6) = W13 m ρ c (Proc.devRef .tc main_arg6) :=
  calc W14 m ρ c (Proc.devRef .tc main_arg6)
    _ = W13 m ρ c (Proc.devRef .tc main_arg6) := ((W14_arr m ρ c 3).trans (((dat5 (V13 m ρ) c).arrAt_in 3 rfl _).trans (A_eq5 (V13 m ρ) c 3)))

theorem keep_arg7_14_12 (c : Dev nD) :
    W14 m ρ c (Proc.devRef .tc main_arg7) = W12 m ρ c (Proc.devRef .tc main_arg7) :=
  calc W14 m ρ c (Proc.devRef .tc main_arg7)
    _ = W13 m ρ c (Proc.devRef .tc main_arg7) := (W14_of_ne m ρ c main_arg7 (by decide))
    _ = W12 m ρ c (Proc.devRef .tc main_arg7) := (by host_keep)

theorem keep_arg7_12_9 (c : Dev nD) :
    W12 m ρ c (Proc.devRef .tc main_arg7) = W9 m ρ c (Proc.devRef .tc main_arg7) :=
  calc W12 m ρ c (Proc.devRef .tc main_arg7)
    _ = W11 m ρ c (Proc.devRef .tc main_arg7) := (W12_of_ne m ρ c main_arg7 (by decide))
    _ = W10 m ρ c (Proc.devRef .tc main_arg7) := (W11_of_ne m ρ c main_arg7 (by decide))
    _ = W9 m ρ c (Proc.devRef .tc main_arg7) := (by host_keep)

theorem keep_arg7_9_6 (c : Dev nD) :
    W9 m ρ c (Proc.devRef .tc main_arg7) = W6 m ρ c (Proc.devRef .tc main_arg7) :=
  calc W9 m ρ c (Proc.devRef .tc main_arg7)
    _ = W8 m ρ c (Proc.devRef .tc main_arg7) := (W9_of_ne m ρ c main_arg7 (by decide))
    _ = W7 m ρ c (Proc.devRef .tc main_arg7) := (W8_of_ne m ρ c main_arg7 (by decide))
    _ = W6 m ρ c (Proc.devRef .tc main_arg7) := (by host_keep)

theorem keep_arg8_14_12 (c : Dev nD) :
    W14 m ρ c (Proc.devRef .tc main_arg8) = W12 m ρ c (Proc.devRef .tc main_arg8) :=
  calc W14 m ρ c (Proc.devRef .tc main_arg8)
    _ = W13 m ρ c (Proc.devRef .tc main_arg8) := (W14_of_ne m ρ c main_arg8 (by decide))
    _ = W12 m ρ c (Proc.devRef .tc main_arg8) := (by host_keep)

theorem keep_arg8_12_9 (c : Dev nD) :
    W12 m ρ c (Proc.devRef .tc main_arg8) = W9 m ρ c (Proc.devRef .tc main_arg8) :=
  calc W12 m ρ c (Proc.devRef .tc main_arg8)
    _ = W11 m ρ c (Proc.devRef .tc main_arg8) := (W12_of_ne m ρ c main_arg8 (by decide))
    _ = W10 m ρ c (Proc.devRef .tc main_arg8) := (W11_of_ne m ρ c main_arg8 (by decide))
    _ = W9 m ρ c (Proc.devRef .tc main_arg8) := (by host_keep)

theorem keep_arg8_9_6 (c : Dev nD) :
    W9 m ρ c (Proc.devRef .tc main_arg8) = W6 m ρ c (Proc.devRef .tc main_arg8) :=
  calc W9 m ρ c (Proc.devRef .tc main_arg8)
    _ = W8 m ρ c (Proc.devRef .tc main_arg8) := (W9_of_ne m ρ c main_arg8 (by decide))
    _ = W7 m ρ c (Proc.devRef .tc main_arg8) := (W8_of_ne m ρ c main_arg8 (by decide))
    _ = W6 m ρ c (Proc.devRef .tc main_arg8) := (by host_keep)

theorem keep_v13_8_5 (c : Dev nD) :
    W8 m ρ c (Proc.devRef .tc main_v13) = W5 m ρ c (Proc.devRef .tc main_v13) :=
  calc W8 m ρ c (Proc.devRef .tc main_v13)
    _ = W7 m ρ c (Proc.devRef .tc main_v13) := (W8_of_ne m ρ c main_v13 (by decide))
    _ = W6 m ρ c (Proc.devRef .tc main_v13) := (by host_keep)
    _ = W5 m ρ c (Proc.devRef .tc main_v13) := ((W6_arr m ρ c 1).trans (((dat0 (V5 m ρ) c).arrAt_in 1 rfl _).trans (A_eq0 (V5 m ρ) c 1)))

theorem keep_v13_11_8 (c : Dev nD) :
    W11 m ρ c (Proc.devRef .tc main_v13) = W8 m ρ c (Proc.devRef .tc main_v13) :=
  calc W11 m ρ c (Proc.devRef .tc main_v13)
    _ = W10 m ρ c (Proc.devRef .tc main_v13) := (W11_of_ne m ρ c main_v13 (by decide))
    _ = W9 m ρ c (Proc.devRef .tc main_v13) := (by host_keep)
    _ = W8 m ρ c (Proc.devRef .tc main_v13) := ((W9_arr m ρ c 1).trans (((dat2 (V8 m ρ) c).arrAt_in 1 rfl _).trans (A_eq2 (V8 m ρ) c 1)))

theorem keep_v14_7_5 (c : Dev nD) :
    W7 m ρ c (Proc.devRef .tc main_v14) = W5 m ρ c (Proc.devRef .tc main_v14) :=
  calc W7 m ρ c (Proc.devRef .tc main_v14)
    _ = W6 m ρ c (Proc.devRef .tc main_v14) := (by host_keep)
    _ = W5 m ρ c (Proc.devRef .tc main_v14) := (W6_of_ne m ρ c main_v14 (by decide))

theorem keep_v14_10_7 (c : Dev nD) :
    W10 m ρ c (Proc.devRef .tc main_v14) = W7 m ρ c (Proc.devRef .tc main_v14) :=
  calc W10 m ρ c (Proc.devRef .tc main_v14)
    _ = W9 m ρ c (Proc.devRef .tc main_v14) := (by host_keep)
    _ = W8 m ρ c (Proc.devRef .tc main_v14) := (W9_of_ne m ρ c main_v14 (by decide))
    _ = W7 m ρ c (Proc.devRef .tc main_v14) := ((W8_arr m ρ c 1).trans (((dat1 (V7 m ρ) c).arrAt_in 1 rfl _).trans (A_eq1 (V7 m ρ) c 1)))

theorem keep_v14_13_10 (c : Dev nD) :
    W13 m ρ c (Proc.devRef .tc main_v14) = W10 m ρ c (Proc.devRef .tc main_v14) :=
  calc W13 m ρ c (Proc.devRef .tc main_v14)
    _ = W12 m ρ c (Proc.devRef .tc main_v14) := (by host_keep)
    _ = W11 m ρ c (Proc.devRef .tc main_v14) := (W12_of_ne m ρ c main_v14 (by decide))
    _ = W10 m ρ c (Proc.devRef .tc main_v14) := ((W11_arr m ρ c 1).trans (((dat3 (V10 m ρ) c).arrAt_in 1 rfl _).trans (A_eq3 (V10 m ρ) c 1)))

theorem keep_v26_14_8 (c : Dev nD) :
    W14 m ρ c (Proc.devRef .tc main_v26) = W8 m ρ c (Proc.devRef .tc main_v26) :=
  calc W14 m ρ c (Proc.devRef .tc main_v26)
    _ = W13 m ρ c (Proc.devRef .tc main_v26) := (W14_of_ne m ρ c main_v26 (by decide))
    _ = W12 m ρ c (Proc.devRef .tc main_v26) := (by host_keep)
    _ = W11 m ρ c (Proc.devRef .tc main_v26) := (W12_of_ne m ρ c main_v26 (by decide))
    _ = W10 m ρ c (Proc.devRef .tc main_v26) := (W11_of_ne m ρ c main_v26 (by decide))
    _ = W9 m ρ c (Proc.devRef .tc main_v26) := (by host_keep)
    _ = W8 m ρ c (Proc.devRef .tc main_v26) := ((W9_arr m ρ c 0).trans (((dat2 (V8 m ρ) c).arrAt_in 0 rfl _).trans (A_eq2 (V8 m ρ) c 0)))

theorem keep_v38_14_11 (c : Dev nD) :
    W14 m ρ c (Proc.devRef .tc main_v38) = W11 m ρ c (Proc.devRef .tc main_v38) :=
  calc W14 m ρ c (Proc.devRef .tc main_v38)
    _ = W13 m ρ c (Proc.devRef .tc main_v38) := (W14_of_ne m ρ c main_v38 (by decide))
    _ = W12 m ρ c (Proc.devRef .tc main_v38) := (by host_keep)
    _ = W11 m ρ c (Proc.devRef .tc main_v38) := ((W12_arr m ρ c 0).trans (((dat4 (V11 m ρ) c).arrAt_in 0 rfl _).trans (A_eq4 (V11 m ρ) c 0)))

/-! ## The arguments at the boundaries where they are read -/

theorem at5_arg0 (c : Dev nD) : W5 m ρ c (Proc.devRef .tc main_arg0) = m ((c : Thread nD τ).loc main_arg0) :=
  (keep_arg0_5_0 m ρ c).trans rfl

theorem at7_arg1 (c : Dev nD) : W7 m ρ c (Proc.devRef .tc main_arg1) = m ((c : Thread nD τ).loc main_arg1) :=
  (keep_arg1_14_7 m ρ c).symm.trans (W14_main_arg1 m ρ c)
theorem at7_arg2 (c : Dev nD) : W7 m ρ c (Proc.devRef .tc main_arg2) = m ((c : Thread nD τ).loc main_arg2) :=
  (keep_arg2_14_7 m ρ c).symm.trans (W14_main_arg2 m ρ c)

theorem at10_arg3 (c : Dev nD) : W10 m ρ c (Proc.devRef .tc main_arg3) = m ((c : Thread nD τ).loc main_arg3) :=
  (keep_arg3_14_10 m ρ c).symm.trans (W14_main_arg3 m ρ c)
theorem at10_arg4 (c : Dev nD) : W10 m ρ c (Proc.devRef .tc main_arg4) = m ((c : Thread nD τ).loc main_arg4) :=
  (keep_arg4_14_10 m ρ c).symm.trans (W14_main_arg4 m ρ c)

theorem at13_arg5 (c : Dev nD) : W13 m ρ c (Proc.devRef .tc main_arg5) = m ((c : Thread nD τ).loc main_arg5) :=
  (keep_arg5_14_13 m ρ c).symm.trans (W14_main_arg5 m ρ c)
theorem at13_arg6 (c : Dev nD) : W13 m ρ c (Proc.devRef .tc main_arg6) = m ((c : Thread nD τ).loc main_arg6) :=
  (keep_arg6_14_13 m ρ c).symm.trans (W14_main_arg6 m ρ c)

theorem at12_arg7 (c : Dev nD) : W12 m ρ c (Proc.devRef .tc main_arg7) = m ((c : Thread nD τ).loc main_arg7) :=
  (keep_arg7_14_12 m ρ c).symm.trans (W14_main_arg7 m ρ c)
theorem at9_arg7 (c : Dev nD) : W9 m ρ c (Proc.devRef .tc main_arg7) = m ((c : Thread nD τ).loc main_arg7) :=
  (keep_arg7_12_9 m ρ c).symm.trans (at12_arg7 m ρ c)
theorem at6_arg7 (c : Dev nD) : W6 m ρ c (Proc.devRef .tc main_arg7) = m ((c : Thread nD τ).loc main_arg7) :=
  (keep_arg7_9_6 m ρ c).symm.trans (at9_arg7 m ρ c)
theorem at12_arg8 (c : Dev nD) : W12 m ρ c (Proc.devRef .tc main_arg8) = m ((c : Thread nD τ).loc main_arg8) :=
  (keep_arg8_14_12 m ρ c).symm.trans (W14_main_arg8 m ρ c)
theorem at9_arg8 (c : Dev nD) : W9 m ρ c (Proc.devRef .tc main_arg8) = m ((c : Thread nD τ).loc main_arg8) :=
  (keep_arg8_12_9 m ρ c).symm.trans (at12_arg8 m ρ c)
theorem at6_arg8 (c : Dev nD) : W6 m ρ c (Proc.devRef .tc main_arg8) = m ((c : Thread nD τ).loc main_arg8) :=
  (keep_arg8_9_6 m ρ c).symm.trans (at9_arg8 m ρ c)

/-! ## The two normalisation columns at the first region's entry -/

theorem at5_v13 (c : Dev nD) : W5 m ρ c (Proc.devRef .tc main_v13) = Gcn.col (Gcn.nrm (m ((c : Thread nD τ).loc main_arg7))) := Gcn.Prelude.v13 m ρ c
theorem at5_v14 (c : Dev nD) : W5 m ρ c (Proc.devRef .tc main_v14) = Gcn.col (Gcn.nrm (m ((c : Thread nD τ).loc main_arg8))) := Gcn.Prelude.v14 m ρ c

theorem at8_v13 (c : Dev nD) : W8 m ρ c (Proc.devRef .tc main_v13) = Gcn.col (Gcn.nrm (m ((c : Thread nD τ).loc main_arg7))) := (keep_v13_8_5 m ρ c).trans (at5_v13 m ρ c)
theorem at11_v13 (c : Dev nD) : W11 m ρ c (Proc.devRef .tc main_v13) = Gcn.col (Gcn.nrm (m ((c : Thread nD τ).loc main_arg7))) := (keep_v13_11_8 m ρ c).trans (at8_v13 m ρ c)
theorem at7_v14 (c : Dev nD) : W7 m ρ c (Proc.devRef .tc main_v14) = Gcn.col (Gcn.nrm (m ((c : Thread nD τ).loc main_arg8))) := (keep_v14_7_5 m ρ c).trans (at5_v14 m ρ c)
theorem at10_v14 (c : Dev nD) : W10 m ρ c (Proc.devRef .tc main_v14) = Gcn.col (Gcn.nrm (m ((c : Thread nD τ).loc main_arg8))) := (keep_v14_10_7 m ρ c).trans (at7_v14 m ρ c)
theorem at13_v14 (c : Dev nD) : W13 m ρ c (Proc.devRef .tc main_v14) = Gcn.col (Gcn.nrm (m ((c : Thread nD τ).loc main_arg8))) := (keep_v14_13_10 m ρ c).trans (at10_v14 m ρ c)

/-! ## The layers -/

/-- The first hidden layer of the launch contents. -/
def H0 (c : Dev nD) : FVec Ideal Cert.ReferenceIdeal.S100000x128 .f32 :=
  Gcn.hidden (m ((c : Thread nD τ).loc main_arg0)) (m ((c : Thread nD τ).loc main_arg1)) (m ((c : Thread nD τ).loc main_arg2)) (m ((c : Thread nD τ).loc main_arg7)) (m ((c : Thread nD τ).loc main_arg8))
/-- The second hidden layer. -/
def H1 (c : Dev nD) : FVec Ideal Cert.ReferenceIdeal.S100000x128 .f32 :=
  Gcn.hidden (H0 m c) (m ((c : Thread nD τ).loc main_arg3)) (m ((c : Thread nD τ).loc main_arg4)) (m ((c : Thread nD τ).loc main_arg7)) (m ((c : Thread nD τ).loc main_arg8))
/-- The last layer. -/
def H2 (c : Dev nD) : FVec Ideal Cert.ReferenceIdeal.S100000x64 .f32 :=
  Gcn.last (H1 m c) (m ((c : Thread nD τ).loc main_arg5)) (m ((c : Thread nD τ).loc main_arg6)) (m ((c : Thread nD τ).loc main_arg7)) (m ((c : Thread nD τ).loc main_arg8))

/-- Layer input scaled by the source-side normalisation (region 0). -/
theorem at6_v15 (c : Dev nD) : W6 m ρ c (Proc.devRef .tc main_v15) = Gcn.scaleRows (m ((c : Thread nD τ).loc main_arg0)) (Gcn.col (Gcn.nrm (m ((c : Thread nD τ).loc main_arg7)))) := by
  refine (W6_arr m ρ c 2).trans ((Gcn.Region0.array (V5 m ρ) c).trans ?_)
  show Gcn.scaleRows (W5 m ρ c (Proc.devRef .tc main_arg0)) (W5 m ρ c (Proc.devRef .tc main_v13)) = _
  rw [at5_arg0 m ρ c, at5_v13 m ρ c]

/-- Summed along the edges (the host stretch after region 0). -/
theorem at7_v25 (c : Dev nD) : W7 m ρ c (Proc.devRef .tc main_v25) = Gcn.agg (m ((c : Thread nD τ).loc main_arg7)) (m ((c : Thread nD τ).loc main_arg8)) (Gcn.scaleRows (m ((c : Thread nD τ).loc main_arg0)) (Gcn.col (Gcn.nrm (m ((c : Thread nD τ).loc main_arg7))))) := by
  have h7 := at6_arg7 m ρ c
  have h8 := at6_arg8 m ρ c
  have hx := at6_v15 m ρ c
  show StableHlo.after hostOps1 (W6 m ρ c) (Proc.devRef .tc main_v25) = _
  simp only [hostOps1]
  after_results_simp
  rw [h7, h8, hx]
  rfl

/-- The dense stage and the rectifier (region 1). -/
theorem at8_v26 (c : Dev nD) : W8 m ρ c (Proc.devRef .tc main_v26) = H0 m c := by
  refine (W8_arr m ρ c 4).trans ((Gcn.Region1.array (V7 m ρ) c).trans ?_)
  show Gcn.relu128 (Gcn.dense128 (W7 m ρ c (Proc.devRef .tc main_v25)) (W7 m ρ c (Proc.devRef .tc main_v14))
      (W7 m ρ c (Proc.devRef .tc main_arg1)) (W7 m ρ c (Proc.devRef .tc main_arg2))) = _
  rw [at7_v25 m ρ c, at7_v14 m ρ c, at7_arg1 m ρ c, at7_arg2 m ρ c]
  rfl

/-- Layer input scaled by the source-side normalisation (region 2). -/
theorem at9_v27 (c : Dev nD) : W9 m ρ c (Proc.devRef .tc main_v27) = Gcn.scaleRows (H0 m c) (Gcn.col (Gcn.nrm (m ((c : Thread nD τ).loc main_arg7)))) := by
  refine (W9_arr m ρ c 2).trans ((Gcn.Region2.array (V8 m ρ) c).trans ?_)
  show Gcn.scaleRows (W8 m ρ c (Proc.devRef .tc main_v26)) (W8 m ρ c (Proc.devRef .tc main_v13)) = _
  rw [at8_v26 m ρ c, at8_v13 m ρ c]

/-- Summed along the edges (the host stretch after region 2). -/
theorem at10_v37 (c : Dev nD) : W10 m ρ c (Proc.devRef .tc main_v37) = Gcn.agg (m ((c : Thread nD τ).loc main_arg7)) (m ((c : Thread nD τ).loc main_arg8)) (Gcn.scaleRows (H0 m c) (Gcn.col (Gcn.nrm (m ((c : Thread nD τ).loc main_arg7))))) := by
  have h7 := at9_arg7 m ρ c
  have h8 := at9_arg8 m ρ c
  have hx := at9_v27 m ρ c
  show StableHlo.after hostOps3 (W9 m ρ c) (Proc.devRef .tc main_v37) = _
  simp only [hostOps3]
  after_results_simp
  rw [h7, h8, hx]
  rfl

/-- The dense stage and the rectifier (region 3). -/
theorem at11_v38 (c : Dev nD) : W11 m ρ c (Proc.devRef .tc main_v38) = H1 m c := by
  refine (W11_arr m ρ c 4).trans ((Gcn.Region3.array (V10 m ρ) c).trans ?_)
  show Gcn.relu128 (Gcn.dense128 (W10 m ρ c (Proc.devRef .tc main_v37)) (W10 m ρ c (Proc.devRef .tc main_v14))
      (W10 m ρ c (Proc.devRef .tc main_arg3)) (W10 m ρ c (Proc.devRef .tc main_arg4))) = _
  rw [at10_v37 m ρ c, at10_v14 m ρ c, at10_arg3 m ρ c, at10_arg4 m ρ c]
  rfl

/-- Layer input scaled by the source-side normalisation (region 4). -/
theorem at12_v39 (c : Dev nD) : W12 m ρ c (Proc.devRef .tc main_v39) = Gcn.scaleRows (H1 m c) (Gcn.col (Gcn.nrm (m ((c : Thread nD τ).loc main_arg7)))) := by
  refine (W12_arr m ρ c 2).trans ((Gcn.Region4.array (V11 m ρ) c).trans ?_)
  show Gcn.scaleRows (W11 m ρ c (Proc.devRef .tc main_v38)) (W11 m ρ c (Proc.devRef .tc main_v13)) = _
  rw [at11_v38 m ρ c, at11_v13 m ρ c]

/-- Summed along the edges (the host stretch after region 4). -/
theorem at13_v49 (c : Dev nD) : W13 m ρ c (Proc.devRef .tc main_v49) = Gcn.agg (m ((c : Thread nD τ).loc main_arg7)) (m ((c : Thread nD τ).loc main_arg8)) (Gcn.scaleRows (H1 m c) (Gcn.col (Gcn.nrm (m ((c : Thread nD τ).loc main_arg7))))) := by
  have h7 := at12_arg7 m ρ c
  have h8 := at12_arg8 m ρ c
  have hx := at12_v39 m ρ c
  show StableHlo.after hostOps5 (W12 m ρ c) (Proc.devRef .tc main_v49) = _
  simp only [hostOps5]
  after_results_simp
  rw [h7, h8, hx]
  rfl

/-- The last dense stage (region 5). -/
theorem at14_v50 (c : Dev nD) : W14 m ρ c (Proc.devRef .tc main_v50) = H2 m c := by
  refine (W14_arr m ρ c 4).trans ((Gcn.Region5.array (V13 m ρ) c).trans ?_)
  show Gcn.dense64 (W13 m ρ c (Proc.devRef .tc main_v49)) (W13 m ρ c (Proc.devRef .tc main_v14))
      (W13 m ρ c (Proc.devRef .tc main_arg5)) (W13 m ρ c (Proc.devRef .tc main_arg6)) = _
  rw [at13_v49 m ρ c, at13_v14 m ρ c, at13_arg5 m ρ c, at13_arg6 m ρ c]
  rfl

/-- The two hidden layers' outputs are not written again before the return. -/
theorem at14_v26 (c : Dev nD) : W14 m ρ c (Proc.devRef .tc main_v26) = H0 m c := (keep_v26_14_8 m ρ c).trans (at8_v26 m ρ c)
theorem at14_v38 (c : Dev nD) : W14 m ρ c (Proc.devRef .tc main_v38) = H1 m c := (keep_v38_14_11 m ρ c).trans (at11_v38 m ρ c)

/-! ## The run with the results named -/

/-- Every weakly fair execution terminates with the three results at the three layers of the launch contents and the
    arguments as launched. -/
theorem run_layers : θ_run defs (onTc (τ := τ) (main (F := Ideal))) ⟨m, fun _ => 0, ρ⟩ (fun r => ∀ c : Dev nD,
      r.2.mem ((c.tc : Thread nD τ).loc main_v26) = H0 m c
      ∧ r.2.mem ((c.tc : Thread nD τ).loc main_v38) = H1 m c
      ∧ r.2.mem ((c.tc : Thread nD τ).loc main_v50) = H2 m c
      ∧ r.2.mem ((c.tc : Thread nD τ).loc main_v50) = H2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v26 (by decide))).trans (at14_v26 m ρ c),
     (h c _ (mem_uc main_v38 (by decide))).trans (at14_v38 m ρ c),
     (h c _ (mem_uc main_v50 (by decide))).trans (at14_v50 m ρ c),
     (h c _ (mem_uc main_v50 (by decide))).trans (at14_v50 m ρ c),
     (h c _ (mem_uc main_arg0 (by decide))).trans (W14_main_arg0 m ρ c),
     (h c _ (mem_uc main_arg1 (by decide))).trans (W14_main_arg1 m ρ c),
     (h c _ (mem_uc main_arg2 (by decide))).trans (W14_main_arg2 m ρ c),
     (h c _ (mem_uc main_arg3 (by decide))).trans (W14_main_arg3 m ρ c),
     (h c _ (mem_uc main_arg4 (by decide))).trans (W14_main_arg4 m ρ c),
     (h c _ (mem_uc main_arg5 (by decide))).trans (W14_main_arg5 m ρ c),
     (h c _ (mem_uc main_arg6 (by decide))).trans (W14_main_arg6 m ρ c),
     (h c _ (mem_uc main_arg7 (by decide))).trans (W14_main_arg7 m ρ c),
     (h c _ (mem_uc main_arg8 (by decide))).trans (W14_main_arg8 m ρ c)⟩)
    (run m ρ)

end Gcn.Fold

end
-- ==== Proof.RefStages.lean ====
/-
  The reference's run, read as the three layers.

  The reference computes each layer with host operations only: the generated run states each result as the
  operations' composed term of the launch contents of the arguments. Those terms are, operation for operation, the
  layers of `Glue` — `scaleRows`, `agg`, `dense128` / `dense64`, `relu128` over `nrm` and `col` — so each equation
  below holds by unfolding the definitions.
-/
import proofs.«166575_j13606456393829_1_alg».proof.Proof.Gen.ReferenceIdeal.Run
import proofs.«166575_j13606456393829_1_alg».proof.Proof.Glue

set_option maxRecDepth 16384

noncomputable section

namespace Gcn.Ref

open Idealize.ShloMosaic Idealize.ShloMosaic.TcCoe Idealize.SL.Sem Cert.ReferenceIdeal Cert.ReferenceIdeal.Gen

variable (m : (ℓ : Loc nD τ sig) → Buf (Elt Ideal) ℓ) (ρ : Dev nD → PrngReg)

/-- The first hidden layer of the launch contents. -/
def R0 (c : Dev nD) : FVec Ideal S100000x128 .f32 :=
  Gcn.hidden (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8))
/-- The second hidden layer. -/
def R1 (c : Dev nD) : FVec Ideal S100000x128 .f32 :=
  Gcn.hidden (R0 m c) (m ((c.tc : Thread nD τ).loc main_arg3)) (m ((c.tc : Thread nD τ).loc main_arg4)) (m ((c.tc : Thread nD τ).loc main_arg7)) (m ((c.tc : Thread nD τ).loc main_arg8))
/-- The last layer. -/
def R2 (c : Dev nD) : FVec Ideal S100000x64 .f32 :=
  Gcn.last (R1 m c) (m ((c.tc : Thread nD τ).loc main_arg5)) (m ((c.tc : Thread nD τ).loc main_arg6)) (m ((c.tc : Thread nD τ).loc main_arg7)) (m ((c.tc : Thread nD τ).loc main_arg8))

theorem res1_eq (c : Dev nD) : Cert.ReferenceIdeal.Value.res_main_v54 (F := Ideal) m c = R1 m c := by
  unfold Cert.ReferenceIdeal.Value.res_main_v54
  rfl

theorem res2_eq (c : Dev nD) : Cert.ReferenceIdeal.Value.res_main_v74 (F := Ideal) m c = R2 m c := by
  unfold Cert.ReferenceIdeal.Value.res_main_v74
  rfl

/-- Every weakly fair execution of the reference terminates with the three results at the three layers of the launch
    contents and the arguments as launched. -/
theorem run_layers : θ_run defs (onTc (τ := τ) (main (F := Ideal))) ⟨m, fun _ => 0, ρ⟩ (fun r => ∀ c : Dev nD,
      r.2.mem ((c.tc : Thread nD τ).loc main_v33) = R0 m c
      ∧ r.2.mem ((c.tc : Thread nD τ).loc main_v54) = R1 m c
      ∧ r.2.mem ((c.tc : Thread nD τ).loc main_v74) = R2 m c
      ∧ r.2.mem ((c.tc : Thread nD τ).loc main_v74) = R2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c).1.trans rfl, (h c).2.1.trans (res1_eq m c), (h c).2.2.1.trans (res2_eq m c), (h c).2.2.2.1.trans (res2_eq m c),
     (h c).2.2.2.2⟩)
    (Cert.ReferenceIdeal.Value.run (F := Ideal) m ρ)

end Gcn.Ref

end
-- ==== Proof.lean ====
/-
  Three graph-convolution layers: the kernel against its reference on the extended reals.

  Both programs compute, per layer, `h ↦ ((A (h ⊙ nrm src)) ⊙ nrm dst) · W + b` (rectified in the first two layers),
  where `A` sums rows along the graph's edges and `nrm` is the clipped degree to the power `-1/2`. They share the
  host operations for `nrm` and `A`; the kernel moves the two row scalings and the dense map into six tiled regions
  of 5000 rows per grid point. On the extended reals a change of float format is the identity and the matrix
  unit accumulating into zero is the plain contraction, so tile by tile the regions compute the reference's stages
  (`Tile`, `Region0` … `Region5`), the kernel's buffers at the boundaries between its segments are the layers of
  the launch contents (`Fold`), and so are the reference's results (`RefStages`). No law beyond the definitions of
  the operations is used, so the precondition is never opened.
-/
import proofs.«166575_j13606456393829_1_alg».proof.Defs
import proofs.«166575_j13606456393829_1_alg».proof.Proof.Gen.Kernel
import proofs.«166575_j13606456393829_1_alg».proof.Proof.Gen.Kernel.Skeleton
import proofs.«166575_j13606456393829_1_alg».proof.Proof.Gen.Kernel.Launch
import proofs.«166575_j13606456393829_1_alg».proof.Proof.Gen.Kernel.Points
import proofs.«166575_j13606456393829_1_alg».proof.Proof.Gen.Kernel.Frame
import proofs.«166575_j13606456393829_1_alg».proof.Proof.Gen.KernelIdeal
import proofs.«166575_j13606456393829_1_alg».proof.Proof.Gen.KernelIdeal.Skeleton
import proofs.«166575_j13606456393829_1_alg».proof.Proof.Gen.KernelIdeal.Launch
import proofs.«166575_j13606456393829_1_alg».proof.Proof.Gen.KernelIdeal.Points
import proofs.«166575_j13606456393829_1_alg».proof.Proof.Gen.KernelIdeal.Frame
import proofs.«166575_j13606456393829_1_alg».proof.Proof.Gen.ReferenceIdeal
import proofs.«166575_j13606456393829_1_alg».proof.Proof.Gen.Pre_finite_inputs
import proofs.«166575_j13606456393829_1_alg».proof.Proof.Fold
import proofs.«166575_j13606456393829_1_alg».proof.Proof.RefStages
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2.2.2) (Gcn.Ref.run_layers m ρ)

/-- The ideal pass rewrote nothing. -/
theorem preserves : Cert.preserves_Kernel_KernelIdeal := trivial

/-- From memories agreeing on the arguments both programs end with the three layers of the same arrays. -/
theorem algebraic : Cert.algebraic_KernelIdeal_ReferenceIdeal := by
  intro m ρ m' ρ' _ hagree
  refine ⟨fun c => Gcn.Fold.H0 m c, fun c => Gcn.Fold.H1 m c, fun c => Gcn.Fold.H2 m c, fun c => Gcn.Fold.H2 m c,
    Gcn.Fold.run_layers m ρ, ?_⟩
  refine (θ_run Cert.ReferenceIdeal.defs _ _).mono (fun r h c => ?_) (Gcn.Ref.run_layers m' ρ')
  obtain ⟨h0, h1, h2, h3, hargs⟩ := h c
  obtain ⟨a0, a1, a2, a3, a4, a5, a6, a7, a8⟩ := hagree c
  have e0 : Gcn.Ref.R0 m' c = Gcn.Fold.H0 m c := by
    unfold Gcn.Ref.R0 Gcn.Fold.H0
    rw [a0, a1, a2, a7, a8]
  have e1 : Gcn.Ref.R1 m' c = Gcn.Fold.H1 m c := by
    unfold Gcn.Ref.R1 Gcn.Fold.H1
    rw [e0, a3, a4, a7, a8]
  have e2 : Gcn.Ref.R2 m' c = Gcn.Fold.H2 m c := by
    unfold Gcn.Ref.R2 Gcn.Fold.H2
    rw [e1, a5, a6, a7, a8]
  exact ⟨h0.trans e0, h1.trans e1, h2.trans e2, h3.trans e2, hargs⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
